-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.truncf_extf.Statement Cert.KernelIdeal.S512x1024 .f32 .bf16
  ∧ IdealRules.truncf_extf.Statement Cert.KernelIdeal.S512x1024 .f32 .bf16
  ∧ IdealRules.truncf_extf.Statement Cert.KernelIdeal.S1024x1024 .f32 .bf16
  ∧ IdealRules.truncf_extf.Statement Cert.KernelIdeal.S1024x1024 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S1024x1024 : Shape := ⟨2, ![1024, 1024]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  main_v18

def fn {F : FTy → Type} [FloatOps F] (main_arg0 : FVec F S4x4096x1024 .f32) (main_arg1 : FVec F S1024x1024 .f32) (main_arg2 : FVec F S1024x1024 .f32) (main_arg3 : FVec F S1024x1024 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_v13 main_v16
-- ==== Kernel.lean ====
abbrev S4x4096x1024 : Shape := ⟨3, ![4, 4096, 1024]⟩
abbrev S1024x1024 : Shape := ⟨2, ![1024, 1024]⟩
abbrev S4x1024x1024 : Shape := ⟨3, ![4, 1024, 1024]⟩
abbrev S1x512x1024 : Shape := ⟨3, ![1, 512, 1024]⟩
abbrev S1x1024x1024 : Shape := ⟨3, ![1, 1024, 1024]⟩
abbrev S512x1024 : Shape := ⟨2, ![512, 1024]⟩

abbrev nBuf : Space → Nat
  | .hbm => 10
  | .vmem => 14
  | .smem => 0
  | _ => 0

abbrev bufTy : (tb : Table) → Fin (tcTables nBuf tb) → BufTy
  | .hbm, ⟨0, _⟩ => ⟨S4x4096x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .bf16⟩
  | .hbm, ⟨5, _⟩ => ⟨S1024x1024, .bf16⟩
  | .hbm, ⟨6, _⟩ => ⟨S1024x1024, .bf16⟩
  | .hbm, ⟨7, _⟩ => ⟨S4x4096x1024, .f32⟩
  | .hbm, ⟨8, _⟩ => ⟨S4x1024x1024, .f32⟩
  | .hbm, ⟨9, _⟩ => ⟨S4x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1x512x1024, .f32⟩
  | .local _ .vmem, ⟨6, _⟩ => ⟨S1x512x1024, .f32⟩
  | .local _ .vmem, ⟨7, _⟩ => ⟨S1x1024x1024, .f32⟩
  | .local _ .vmem, ⟨8, _⟩ => ⟨S1x1024x1024, .f32⟩
  | .local _ .vmem, ⟨9, _⟩ => ⟨S1x1024x1024, .f32⟩
  | .local _ .vmem, ⟨10, _⟩ => ⟨S1x1024x1024, .f32⟩
  | .local _ .vmem, ⟨11, _⟩ => ⟨S1x1024x1024, .f32⟩
  | .local _ .vmem, ⟨12, _⟩ => ⟨S1x1024x1024, .f32⟩
  | .local _ .vmem, ⟨13, _⟩ => ⟨S1x1024x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg2_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem2_1 : DmaSem sig := 13

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨2, ![4, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1x1024x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, false]

abbrev stage1_2 : Fin 2 → Memref sig .tc .vmem S1x1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  bitsLt_bf16_f32 : FTy.bits .bf16 < FTy.bits .f32
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S512x1024_S1x512x1024 : S512x1024.ShapeCasts S1x512x1024
  dot_S512x1024_S1024x1024_S512x1024_1_0_0_1_n_n_wf : DotDims.WF S512x1024 S1024x1024 S512x1024 [1] [0] [0] [1] [] []
  dot_S512x1024_S512x1024_S1024x1024_0_0_1_1_n_n_wf : DotDims.WF S512x1024 S512x1024 S1024x1024 [0] [0] [1] [1] [] []
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S4x4096x1024.size a
  hwx0_0 : ∀ i : grid0.Coords, EltTy.bits .f32 = 32 ∨ (Rect.block (s := S4x4096x1024) S1x512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x1024.size a ≤ S4x4096x1024.size a
  hwx0_4 : ∀ i : grid0.Coords, EltTy.bits .f32 = 32 ∨ (Rect.block (s := S4x4096x1024) S1x512x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024x1024.size a ≤ S4x1024x1024.size a
  hwx0_5 : ∀ i : grid0.Coords, EltTy.bits .f32 = 32 ∨ (Rect.block (s := S4x1024x1024) S1x1024x1024.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x1024.size a ≤ S4x4096x1024.size a
  hwx1_0 : ∀ i : grid1.Coords, EltTy.bits .f32 = 32 ∨ (Rect.block (s := S4x4096x1024) S1x1024x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x1024x1024.size a ≤ S4x1024x1024.size a
  hwx1_1 : ∀ i : grid1.Coords, EltTy.bits .f32 = 32 ∨ (Rect.block (s := S4x1024x1024) S1x1024x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x1024.size a ≤ S4x4096x1024.size a
  hwx1_2 : ∀ i : grid1.Coords, EltTy.bits .f32 = 32 ∨ (Rect.block (s := S4x4096x1024) S1x1024x1024.size (cc1_transform_2 i) (hinb1_2 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x1024_S512x1024_S1024x1024_0_0_1_1_n_n : DotDims S512x1024 S512x1024 S1024x1024 where
  lhsContracting := [0]
  rhsContracting := [0]
  lhsNonContracting := [1]
  rhsNonContracting := [1]
  lhsBatch := []
  rhsBatch := []
  wf := dot_S512x1024_S512x1024_S1024x1024_0_0_1_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3_0) S1x512x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3_1) S1x1024x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v3_0) S1x1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3_1) S1x1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x1024x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S4x4096x1024 : Shape := ⟨3, ![4, 4096, 1024]⟩
abbrev S1024x1024 : Shape := ⟨2, ![1024, 1024]⟩
abbrev S_ : Shape := ⟨0, ![]⟩
abbrev S4x4096x4096 : Shape := ⟨3, ![4, 4096, 4096]⟩

abbrev nBuf : Space → Nat
  | .hbm => 13
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S4x4096x1024, .f32⟩
  | .hbm, ⟨5, _⟩ => ⟨S4x4096x1024, .f32⟩
  | .hbm, ⟨6, _⟩ => ⟨S4x4096x1024, .f32⟩
  | .hbm, ⟨7, _⟩ => ⟨S_, .f32⟩
  | .hbm, ⟨8, _⟩ => ⟨S_, .f32⟩
  | .hbm, ⟨9, _⟩ => ⟨S4x4096x4096, .f32⟩
  | .hbm, ⟨10, _⟩ => ⟨S4x4096x4096, .f32⟩
  | .hbm, ⟨11, _⟩ => ⟨S4x4096x4096, .f32⟩
  | .hbm, ⟨12, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]

class Facts₀ : Prop where
  bcast_S_S4x4096x4096 : S_.BroadcastsInDim S4x4096x4096 (![] : Fin 0 → Fin S4x4096x4096.rank)
  dot_S4x4096x1024_S1024x1024_S4x4096x1024_2_0_01_1_n_n_wf : DotDims.WF S4x4096x1024 S1024x1024 S4x4096x1024 [2] [0] [0, 1] [1] [] []
  dot_S4x4096x1024_S4x4096x1024_S4x4096x4096_2_2_1_1_0_0_wf : DotDims.WF S4x4096x1024 S4x4096x1024 S4x4096x4096 [2] [2] [1] [1] [0] [0]
  dot_S4x4096x4096_S4x4096x1024_S4x4096x1024_2_1_1_2_0_0_wf : DotDims.WF S4x4096x4096 S4x4096x1024 S4x4096x1024 [2] [1] [1] [2] [0] [0]

variable [Facts₀]

def dot_S4x4096x1024_S1024x1024_S4x4096x1024_2_0_01_1_n_n : DotDims S4x4096x1024 S1024x1024 S4x4096x1024 where
  lhsContracting := [2]
  rhsContracting := [0]
  lhsNonContracting := [0, 1]
  rhsNonContracting := [1]
  lhsBatch := []
  rhsBatch := []
  wf := dot_S4x4096x1024_S1024x1024_S4x4096x1024_2_0_01_1_n_n_wf
def dot_S4x4096x1024_S4x4096x1024_S4x4096x4096_2_2_1_1_0_0 : DotDims S4x4096x1024 S4x4096x1024 S4x4096x4096 where
  lhsContracting := [2]
  rhsContracting := [2]
  lhsNonContracting := [1]
  rhsNonContracting := [1]
  lhsBatch := [0]
  rhsBatch := [0]
  wf := dot_S4x4096x1024_S4x4096x1024_S4x4096x4096_2_2_1_1_0_0_wf
def dot_S4x4096x4096_S4x4096x1024_S4x4096x1024_2_1_1_2_0_0 : DotDims S4x4096x4096 S4x4096x1024 S4x4096x1024 where
  lhsContracting := [2]
  rhsContracting := [1]
  lhsNonContracting := [1]
  rhsNonContracting := [2]
  lhsBatch := [0]
  rhsBatch := [0]
  wf := dot_S4x4096x4096_S4x4096x1024_S4x4096x1024_2_1_1_2_0_0_wf

class Facts : Prop extends Facts₀ where

variable [Facts]
-- ==== Proof.LibAllReal.lean ====
/-
  Real-valued arrays over the extended reals.

  At the ideal float instance a float is an extended real. An array is REAL when every entry is (the
  coercion of) a real number: no entry is `⊤` or `⊥`. The algebra a value proof uses — distributivity,
  cancellation, the exchange of finite sums — holds for reals and fails at the infinities, so a value proof
  carries this predicate along the program. This file proves that the host operations keep it:

  * pointwise sum, difference, product, maximum, minimum, negation; a selection between two real arrays;
    the splat of a bit pattern that denotes a real (with the patterns of 0, 1, 169343 and the single-precision
    neighbour of 10⁻⁵, which is positive);
  * every re-indexing (broadcasts, reshape, slice, transpose, gather), whose entries are entries of the operand;
  * a finite sum of reals; hence the exact scatter-add, the exact sum-reduction, the exact matrix product;
  * the quotient by an array of nonzero reals and the reciprocal square root of an array of positive reals;
    and `where (d > 0) (rsqrt d) w`, which is real for every real `d`: the reciprocal square root is read
    only where `d` is positive.
-/
import Idealize.ShloMosaic.PureOps
import Idealize.ShloMosaic.PureOps.Ideal
import Idealize.ShloMosaic.PureOps.Ideal.Laws
import Idealize.ShloMosaic.Lib.ReduceAll

noncomputable section

namespace Cert.Lib.AllReal

open Idealize.ShloMosaic

/-! ## The predicates -/

/-- An extended real that is (the coercion of) a real number. -/
def IsReal (x : EReal) : Prop := ∃ r : ℝ, x = (r : EReal)

/-- An array over the extended reals every entry of which is a real number. -/
def AllReal {s : Shape} (v : s.Idx → EReal) : Prop := ∀ i, ∃ r : ℝ, v i = (r : EReal)

/-- An array is real exactly when each entry is. -/
theorem allReal_iff {s : Shape} (v : s.Idx → EReal) : AllReal v ↔ ∀ i, IsReal (v i) := Iff.rfl

/-- The entry of a real array at an index, as a real number. -/
theorem AllReal.isReal {s : Shape} {v : s.Idx → EReal} (h : AllReal v) (i : s.Idx) : IsReal (v i) := h i

/-- A real number is neither infinity. -/
theorem IsReal.ne_top {x : EReal} (h : IsReal x) : x ≠ ⊤ := by
  obtain ⟨r, rfl⟩ := h; exact EReal.coe_ne_top r

/-- A real number is neither infinity. -/
theorem IsReal.ne_bot {x : EReal} (h : IsReal x) : x ≠ ⊥ := by
  obtain ⟨r, rfl⟩ := h; exact EReal.coe_ne_bot r

/-- An extended real that is neither infinity is a real number. -/
theorem isReal_of_ne {x : EReal} (hb : x ≠ ⊥) (ht : x ≠ ⊤) : IsReal x := by
  induction x using EReal.rec with
  | bot => exact absurd rfl hb
  | coe r => exact ⟨r, rfl⟩
  | top => exact absurd rfl ht

/-- An extended real of absolute value below `⊤` is a real number. -/
theorem isReal_of_abs_lt_top {x : EReal} (h : max x (-x) < ⊤) : IsReal x := by
  induction x using EReal.rec with
  | bot => exact absurd h (by simp)
  | coe r => exact ⟨r, rfl⟩
  | top => exact absurd h (by simp)

/-! ## Scalars -/

/-- A coerced real is real. -/
theorem isReal_coe (r : ℝ) : IsReal (r : EReal) := ⟨r, rfl⟩

/-- Zero is real. -/
theorem isReal_zero : IsReal 0 := ⟨0, rfl⟩

/-- One is real. -/
theorem isReal_one : IsReal 1 := ⟨1, rfl⟩

/-- The sum of two reals is real. -/
theorem IsReal.add {x y : EReal} (hx : IsReal x) (hy : IsReal y) : IsReal (x + y) := by
  obtain ⟨a, rfl⟩ := hx; obtain ⟨b, rfl⟩ := hy; exact ⟨a + b, (EReal.coe_add a b).symm⟩

/-- The difference of two reals is real. -/
theorem IsReal.sub {x y : EReal} (hx : IsReal x) (hy : IsReal y) : IsReal (x - y) := by
  obtain ⟨a, rfl⟩ := hx; obtain ⟨b, rfl⟩ := hy; exact ⟨a - b, (EReal.coe_sub a b).symm⟩

/-- The product of two reals is real. -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The negative of a real is real. -/
theorem IsReal.neg {x : EReal} (hx : IsReal x) : IsReal (-x) := by
  obtain ⟨a, rfl⟩ := hx; exact ⟨-a, (EReal.coe_neg a).symm⟩

/-- The greater of two reals is real: it is one of them. -/
theorem IsReal.max {x y : EReal} (hx : IsReal x) (hy : IsReal y) : IsReal (max x y) := by
  rcases le_total x y with h | h
  · rw [max_eq_right h]; exact hy
  · rw [max_eq_left h]; exact hx

/-- The lesser of two reals is real: it is one of them. -/
theorem IsReal.min {x y : EReal} (hx : IsReal x) (hy : IsReal y) : IsReal (min x y) := by
  rcases le_total x y with h | h
  · rw [min_eq_left h]; exact hx
  · rw [min_eq_right h]; exact hy

/-- A finite sum of reals is real. -/
theorem isReal_sum {ι : Type*} (s : Finset ι) (f : ι → EReal) (h : ∀ k ∈ s, IsReal (f k)) :
    IsReal (∑ k ∈ s, f k) := by
  classical
  induction s using Finset.induction_on with
  | empty => rw [Finset.sum_empty]; exact isReal_zero
  | insert a s ha ih =>
    rw [Finset.sum_insert ha]
    exact (h a (Finset.mem_insert_self a s)).add (ih fun k hk => h k (Finset.mem_insert_of_mem hk))

/-- The exact quotient of a real by a nonzero real is real: the product with the reciprocal. -/
theorem IsReal.div {x : EReal} (hx : IsReal x) {b : ℝ} (hb : b ≠ 0) : IsReal (Ideal.div x (b : EReal)) := by
  rw [Ideal.div_coe hb]; exact hx.mul (isReal_coe _)

/-- The reciprocal square root of a positive real is the real `(√r)⁻¹`. -/
theorem rsqrt_coe_of_pos {r : ℝ} (hr : 0 < r) : Ideal.rsqrt (r : EReal) = (((Real.sqrt r)⁻¹ : ℝ) : EReal) := by
  rw [Ideal.rsqrt_coe, if_neg (not_lt.mpr hr.le), if_neg hr.ne']

/-- The reciprocal square root of a positive real is real. -/
theorem isReal_rsqrt {r : ℝ} (hr : 0 < r) : IsReal (Ideal.rsqrt (r : EReal)) :=
  ⟨_, rsqrt_coe_of_pos hr⟩

/-! ## Bit patterns that denote reals -/

/-- The single-precision pattern of `0.0` is the real 0. -/
theorem ofBits_f32_zero : Ideal.ofBits .f32 0x00000000#32 = ((0 : ℝ) : EReal) := by
  simp [Ideal.ofBits, Ideal.ieee]

/-- The single-precision pattern of `1.0` is the real 1. -/
theorem ofBits_f32_one : Ideal.ofBits .f32 0x3F800000#32 = ((1 : ℝ) : EReal) := by
  simp [Ideal.ofBits, Ideal.ieee]
  rw [← EReal.coe_mul]; norm_num

/-- The single-precision pattern of `169343.0` is the real 169343. -/
theorem ofBits_f32_169343 : Ideal.ofBits .f32 0x48255FC0#32 = ((169343 : ℝ) : EReal) := by
  simp [Ideal.ofBits, Ideal.ieee]
  rw [← EReal.coe_mul]; norm_num

/-- The single-precision neighbour of `10⁻⁵` is the real `10995116 · 2⁻⁴⁰`. -/
theorem ofBits_f32_eps : Ideal.ofBits .f32 0x3727C5AC#32 = ((10995116 * (2 ^ 40)⁻¹ : ℝ) : EReal) := by
  simp [Ideal.ofBits, Ideal.ieee]

/-- The single-precision neighbour of `10⁻⁵` is a positive real. -/
theorem ofBits_f32_eps_pos : ∃ r : ℝ, 0 < r ∧ Ideal.ofBits .f32 0x3727C5AC#32 = (r : EReal) :=
  ⟨_, by positivity, ofBits_f32_eps⟩

/-- The real `169343` is not zero. -/
theorem ofBits_f32_169343_ne_zero : ∃ b : ℝ, b ≠ 0 ∧ Ideal.ofBits .f32 0x48255FC0#32 = (b : EReal) :=
  ⟨_, by norm_num, ofBits_f32_169343⟩

/-! ## Pointwise operations -/

section Pointwise
variable {s : Shape} {φ : FTy}

/-- The pointwise sum of two real arrays is real. -/
theorem allReal_addf (x y : FVec Ideal s φ) (hx : AllReal x) (hy : AllReal y) : AllReal (addf x y) :=
  fun i => IsReal.add (hx i) (hy i)

/-- The pointwise difference of two real arrays is real. -/
theorem allReal_subf (x y : FVec Ideal s φ) (hx : AllReal x) (hy : AllReal y) : AllReal (subf x y) :=
  fun i => IsReal.sub (hx i) (hy i)

/-- The pointwise product of two real arrays is real. -/
theorem allReal_mulf (x y : FVec Ideal s φ) (hx : AllReal x) (hy : AllReal y) : AllReal (mulf x y) :=
  fun i => IsReal.mul (hx i) (hy i)

/-- The pointwise maximum of two real arrays is real. -/
theorem allReal_maximumf (x y : FVec Ideal s φ) (hx : AllReal x) (hy : AllReal y) : AllReal (maximumf x y) :=
  fun i => IsReal.max (hx i) (hy i)

/-- The pointwise minimum of two real arrays is real. -/
theorem allReal_minimumf (x y : FVec Ideal s φ) (hx : AllReal x) (hy : AllReal y) : AllReal (minimumf x y) :=
  fun i => IsReal.min (hx i) (hy i)

/-- The pointwise negative of a real array is real. -/
theorem allReal_negf (x : FVec Ideal s φ) (hx : AllReal x) : AllReal (negf x) :=
  fun i => IsReal.neg (hx i)

/-- A selection between two arrays is real when each branch is real where it is taken. -/
theorem allReal_select_of (c : IVec s 1) (a b : s.Idx → EReal) (ha : ∀ i, c i = 1 → IsReal (a i))
    (hb : ∀ i, c i ≠ 1 → IsReal (b i)) : AllReal (select c a b) := by
  intro i
  show IsReal (if c i = 1 then a i else b i)
  split
  · exact ha i ‹_›
  · exact hb i ‹_›

/-- A selection between two real arrays is real. -/
theorem allReal_select (c : IVec s 1) (a b : s.Idx → EReal) (ha : AllReal a) (hb : AllReal b) :
    AllReal (select c a b) :=
  allReal_select_of c a b (fun i _ => ha i) (fun i _ => hb i)

/-- The splat of a bit pattern that denotes a real is a real array. -/
theorem allReal_constant (bits : BitVec φ.bits) (h : IsReal (Ideal.ofBits φ bits)) :
    AllReal (constant (F := Ideal) s φ bits) :=
  fun _ => h

/-- The splat of `0.0` is a real array. -/
theorem allReal_constant_zero : AllReal (constant (F := Ideal) s .f32 0x00000000#32) :=
  allReal_constant _ ⟨_, ofBits_f32_zero⟩

/-- The splat of `1.0` is a real array. -/
theorem allReal_constant_one : AllReal (constant (F := Ideal) s .f32 0x3F800000#32) :=
  allReal_constant _ ⟨_, ofBits_f32_one⟩

/-- The splat of `169343.0` is a real array. -/
theorem allReal_constant_169343 : AllReal (constant (F := Ideal) s .f32 0x48255FC0#32) :=
  allReal_constant _ ⟨_, ofBits_f32_169343⟩

/-- The splat of the single-precision neighbour of `10⁻⁵` is a real array. -/
theorem allReal_constant_eps : AllReal (constant (F := Ideal) s .f32 0x3727C5AC#32) :=
  allReal_constant _ ⟨_, ofBits_f32_eps⟩

end Pointwise

/-! ## Re-indexings: every entry of the result is an entry of the operand -/

section Layout
variable {s t : Shape}

/-- An array read through any map of indices is real when the array is. -/
theorem allReal_comp (x : s.Idx → EReal) (f : t.Idx → s.Idx) (hx : AllReal x) : AllReal (fun j => x (f j)) :=
  fun j => hx (f j)

/-- The splat of a real scalar is a real array. -/
theorem allReal_broadcast (x : EReal) (hx : IsReal x) : AllReal (broadcast t x) := fun _ => hx

/-- A broadcast along named axes of a real array is real. -/
theorem allReal_broadcastInDim (dims : Fin s.rank → Fin t.rank) (h : s.BroadcastsInDim t dims) (x : s.Idx → EReal)
    (hx : AllReal x) : AllReal (broadcastInDim t dims h x) :=
  fun j => hx _

/-- A broadcast along leading axes of a real array is real. -/
theorem allReal_broadcastTo (x : s.Idx → EReal) (h : s.Broadcasts t) (hx : AllReal x) :
    AllReal (broadcastTo t x h) :=
  fun j => hx _

/-- A reshape of a real array is real. -/
theorem allReal_shapeCast (x : s.Idx → EReal) (h : s.ShapeCasts t) (hx : AllReal x) : AllReal (shapeCast t x h) :=
  fun j => hx _

/-- A slice of a real array is real. -/
theorem allReal_extractStridedSlice (off : Fin s.rank → Nat) (x : s.Idx → EReal) (h : s.Slices off t)
    (hx : AllReal x) : AllReal (extractStridedSlice t off x h) :=
  fun j => hx _

/-- A transpose of a real array is real. -/
theorem allReal_transpose (perm : List (Fin s.rank)) (x : s.Idx → EReal) (h : s.Transposes perm t)
    (hx : AllReal x) : AllReal (transpose t perm x h) :=
  fun j => hx _

/-- A gather from a real array is real, whatever the start indices: each result entry is the operand's entry at
    the (clamped) operand index. -/
theorem allReal_gather {si : Shape} {w : Nat} (d : GatherDims s si t) (x : s.Idx → EReal) (idx : IVec si w)
    (hx : AllReal x) : AllReal (Host.gather d x idx) :=
  fun j => hx _

end Layout

/-! ## Finite sums: scatter-add, sum-reduction, matrix product -/

section Sums

/-- The exact scatter-add into a real array of a real array of updates is real, whatever the indices: each entry
    is the operand's plus the finite sum of the updates that land on it. -/
theorem allReal_scatterAdd {s si u : Shape} {φ : FTy} {w : Nat} (d : ScatterDims s si u) (x : FVec Ideal s φ)
    (idx : IVec si w) (upd : FVec Ideal u φ) (hx : AllReal x) (hu : AllReal upd) :
    AllReal (Host.scatterAdd d x idx upd) := by
  intro i
  show IsReal (x i + ∑ j ∈ Finset.univ.filter (fun j => d.resultIdx? j idx = some i), upd j)
  exact IsReal.add (hx i) (isReal_sum _ _ fun j _ => hu j)

/-- The exact sum-reduction of a real array from a real initial value is real: each entry is the initial value
    plus the finite sum of the entries that reduce to it. -/
theorem allReal_reduceAdd {s t u : Shape} {φ : FTy} {axes : List (Fin s.rank)} (x : FVec Ideal s φ)
    (init : u.Idx → Ideal φ) (h : s.ReducesTo axes t) (hu : 0 < u.numel) (hx : AllReal x) (hi : AllReal init) :
    AllReal (Host.reduceAdd x init h hu) := by
  intro j
  show IsReal (init (Shape.Idx.first hu) + ∑ i ∈ Finset.univ.filter (fun i => h.drop i = j), x i)
  exact IsReal.add (hi _) (isReal_sum _ _ fun i _ => hx i)

/-- The exact matrix product of two real arrays is real: each entry is a finite sum of products. -/
theorem allReal_dotGeneral {sl sr so : Shape} {φ₁ φ₂ : FTy} (d : DotDims sl sr so) (prec : Option ContractPrecision)
    (l : FVec Ideal sl φ₁) (r : FVec Ideal sr φ₂) (hl : AllReal l) (hr : AllReal r) :
    AllReal (Host.dotGeneral d prec l r) := by
  intro j
  show IsReal (FloatOps.dotGeneral d prec .single l r j)
  rw [Ideal.dotGeneral_apply]
  exact isReal_sum _ _ fun k _ => IsReal.mul (hl _) (hr _)

/-- The exact matrix product accumulated into a real array is real. -/
theorem allReal_matmul {sl sr so : Shape} {φ₁ φ₂ : FTy} (d : DotDims sl sr so) (prec : Option ContractPrecision)
    (l : FVec Ideal sl φ₁) (r : FVec Ideal sr φ₂) (acc : FVec Ideal so .f32) (hl : AllReal l) (hr : AllReal r)
    (ha : AllReal acc) : AllReal (FloatOps.matmul d prec l r acc) := by
  intro j
  rw [Ideal.matmul_apply]
  exact IsReal.add (ha j) (isReal_sum _ _ fun k _ => IsReal.mul (hl _) (hr _))

end Sums

/-! ## Quotient and reciprocal square root -/

section Corners
variable {s : Shape} {φ : FTy}

/-- The exact quotient of a real array by an array of nonzero reals is real. -/
theorem allReal_divf (x y : FVec Ideal s φ) (hx : AllReal x) (hy : ∀ i, ∃ b : ℝ, b ≠ 0 ∧ y i = (b : EReal)) :
    AllReal (Host.divf x y) := by
  intro i
  obtain ⟨b, hb, e⟩ := hy i
  show IsReal (Ideal.div (x i) (y i))
  rw [e]; exact IsReal.div (hx i) hb

/-- The reciprocal square root of an array of positive reals is real. -/
theorem allReal_rsqrt (x : FVec Ideal s φ) (hx : ∀ i, ∃ r : ℝ, 0 < r ∧ x i = (r : EReal)) :
    AllReal (Host.rsqrt x) := by
  intro i
  obtain ⟨r, hr, e⟩ := hx i
  show IsReal (Ideal.rsqrt (x i))
  rw [e]; exact isReal_rsqrt hr

/-- `where (d > z) (rsqrt d) w` is real for every real array `d`, when `z` is nowhere negative and `w` is real:
    the reciprocal square root is read only where `d` exceeds `z`, hence is positive; elsewhere the entry is `w`'s. -/
theorem allReal_select_ogt_rsqrt (d z w : FVec Ideal s φ) (hd : AllReal d) (hz : ∀ i, 0 ≤ z i) (hw : AllReal w) :
    AllReal (select (cmpf .ogt d z) (Host.rsqrt d) w) := by
  refine allReal_select_of _ _ _ (fun i hc => ?_) (fun i _ => hw i)
  obtain ⟨r, e⟩ := hd i
  have hlt : z i < d i := by
    have hc' : BitVec.ofBool (decide (z i < d i)) = 1#1 := hc
    by_contra hn
    rw [decide_eq_false hn] at hc'
    exact absurd hc' (by decide)
  have hr : 0 < r := by
    have : (0 : EReal) < (r : EReal) := e ▸ lt_of_le_of_lt (hz i) hlt
    exact_mod_cast this
  show IsReal (Ideal.rsqrt (d i))
  rw [e]; exact isReal_rsqrt hr

end Corners

/-! ## Real entries as real numbers; signs -/

section Values
variable {s t : Shape} {φ : FTy}

/-- A real extended real is the coercion of its real part. -/
theorem IsReal.coe_toReal {x : EReal} (h : IsReal x) : ((x.toReal : ℝ) : EReal) = x := by
  obtain ⟨r, rfl⟩ := h; rfl

/-- Each entry of a real array is the coercion of its real part: `fun i => (v i).toReal` is the array as reals. -/
theorem AllReal.coe_toReal {v : s.Idx → EReal} (h : AllReal v) (i : s.Idx) : (((v i).toReal : ℝ) : EReal) = v i :=
  IsReal.coe_toReal (h i)

/-- An array given entrywise by coerced reals is real. -/
theorem allReal_of_eq_coe {v : s.Idx → EReal} (f : s.Idx → ℝ) (h : ∀ i, v i = (f i : EReal)) : AllReal v :=
  fun i => ⟨f i, h i⟩

/-- An array equal to a real array is real. -/
theorem AllReal.congr {v v' : s.Idx → EReal} (h : AllReal v) (e : ∀ i, v' i = v i) : AllReal v' :=
  fun i => (e i).symm ▸ h i

/-- An array every entry of which is a positive real number. -/
def AllPos (v : s.Idx → EReal) : Prop := ∀ i, ∃ r : ℝ, 0 < r ∧ v i = (r : EReal)

/-- An array every entry of which is a nonnegative real number. -/
def AllNonneg (v : s.Idx → EReal) : Prop := ∀ i, ∃ r : ℝ, 0 ≤ r ∧ v i = (r : EReal)

/-- An array every entry of which is a nonzero real number. -/
def AllNonzero (v : s.Idx → EReal) : Prop := ∀ i, ∃ r : ℝ, r ≠ 0 ∧ v i = (r : EReal)

/-- Positive reals are reals. -/
theorem AllPos.allReal {v : s.Idx → EReal} (h : AllPos v) : AllReal v :=
  fun i => let ⟨r, _, e⟩ := h i; ⟨r, e⟩

/-- Nonnegative reals are reals. -/
theorem AllNonneg.allReal {v : s.Idx → EReal} (h : AllNonneg v) : AllReal v :=
  fun i => let ⟨r, _, e⟩ := h i; ⟨r, e⟩

/-- Positive reals are not zero. -/
theorem AllPos.allNonzero {v : s.Idx → EReal} (h : AllPos v) : AllNonzero v :=
  fun i => let ⟨r, hr, e⟩ := h i; ⟨r, hr.ne', e⟩

/-- Positive reals are nonnegative. -/
theorem AllPos.allNonneg {v : s.Idx → EReal} (h : AllPos v) : AllNonneg v :=
  fun i => let ⟨r, hr, e⟩ := h i; ⟨r, hr.le, e⟩

/-- A real array that is nowhere negative is an array of nonnegative reals. -/
theorem AllReal.allNonneg {v : s.Idx → EReal} (h : AllReal v) (h0 : ∀ i, 0 ≤ v i) : AllNonneg v := by
  intro i
  obtain ⟨r, e⟩ := h i
  refine ⟨r, ?_, e⟩
  have : (0 : EReal) ≤ (r : EReal) := e ▸ h0 i
  exact_mod_cast this

/-- A real array that is everywhere positive is an array of positive reals. -/
theorem AllReal.allPos {v : s.Idx → EReal} (h : AllReal v) (h0 : ∀ i, 0 < v i) : AllPos v := by
  intro i
  obtain ⟨r, e⟩ := h i
  refine ⟨r, ?_, e⟩
  have : (0 : EReal) < (r : EReal) := e ▸ h0 i
  exact_mod_cast this

/-- A nonnegative array plus a positive array is positive. -/
theorem allPos_addf (x y : FVec Ideal s φ) (hx : AllNonneg x) (hy : AllPos y) : AllPos (addf x y) := by
  intro i
  obtain ⟨a, ha, ea⟩ := hx i
  obtain ⟨b, hb, eb⟩ := hy i
  refine ⟨a + b, by positivity, ?_⟩
  show x i + y i = _
  rw [ea, eb, EReal.coe_add]

/-- The sum of two nonnegative arrays is nonnegative. -/
theorem allNonneg_addf (x y : FVec Ideal s φ) (hx : AllNonneg x) (hy : AllNonneg y) : AllNonneg (addf x y) := by
  intro i
  obtain ⟨a, ha, ea⟩ := hx i
  obtain ⟨b, hb, eb⟩ := hy i
  refine ⟨a + b, by positivity, ?_⟩
  show x i + y i = _
  rw [ea, eb, EReal.coe_add]

/-- The product of two nonnegative arrays is nonnegative. -/
theorem allNonneg_mulf (x y : FVec Ideal s φ) (hx : AllNonneg x) (hy : AllNonneg y) : AllNonneg (mulf x y) := by
  intro i
  obtain ⟨a, ha, ea⟩ := hx i
  obtain ⟨b, hb, eb⟩ := hy i
  refine ⟨a * b, by positivity, ?_⟩
  show x i * y i = _
  rw [ea, eb, EReal.coe_mul]

/-- The splat of a bit pattern that denotes a positive real is a positive array. -/
theorem allPos_constant (bits : BitVec φ.bits) (h : ∃ r : ℝ, 0 < r ∧ Ideal.ofBits φ bits = (r : EReal)) :
    AllPos (constant (F := Ideal) s φ bits) :=
  fun _ => h

/-- The splat of the single-precision neighbour of `10⁻⁵` is a positive array. -/
theorem allPos_constant_eps : AllPos (constant (F := Ideal) s .f32 0x3727C5AC#32) :=
  allPos_constant _ ofBits_f32_eps_pos

/-- The splat of `169343.0` is a positive array. -/
theorem allPos_constant_169343 : AllPos (constant (F := Ideal) s .f32 0x48255FC0#32) :=
  allPos_constant _ ⟨_, by norm_num, ofBits_f32_169343⟩

/-- The splat of `1.0` is a positive array. -/
theorem allPos_constant_one : AllPos (constant (F := Ideal) s .f32 0x3F800000#32) :=
  allPos_constant _ ⟨_, by norm_num, ofBits_f32_one⟩

/-- The splat of `0.0` is a nonnegative array. -/
theorem allNonneg_constant_zero : AllNonneg (constant (F := Ideal) s .f32 0x00000000#32) :=
  fun _ => ⟨0, le_refl _, ofBits_f32_zero⟩

/-- A positive array read through any map of indices is positive. -/
theorem allPos_comp (x : s.Idx → EReal) (f : t.Idx → s.Idx) (hx : AllPos x) : AllPos (fun j => x (f j)) :=
  fun j => hx (f j)

/-- A broadcast along named axes of a positive array is positive. -/
theorem allPos_broadcastInDim (dims : Fin s.rank → Fin t.rank) (h : s.BroadcastsInDim t dims) (x : s.Idx → EReal)
    (hx : AllPos x) : AllPos (broadcastInDim t dims h x) :=
  fun j => hx _

/-- A broadcast along named axes of a nonnegative array is nonnegative. -/
theorem allNonneg_broadcastInDim (dims : Fin s.rank → Fin t.rank) (h : s.BroadcastsInDim t dims) (x : s.Idx → EReal)
    (hx : AllNonneg x) : AllNonneg (broadcastInDim t dims h x) :=
  fun j => hx _

/-- A broadcast along named axes of a nonzero array is nonzero. -/
theorem allNonzero_broadcastInDim (dims : Fin s.rank → Fin t.rank) (h : s.BroadcastsInDim t dims) (x : s.Idx → EReal)
    (hx : AllNonzero x) : AllNonzero (broadcastInDim t dims h x) :=
  fun j => hx _

/-- The exact quotient of a real array by a nonzero array is real. -/
theorem allReal_divf_of_allNonzero (x y : FVec Ideal s φ) (hx : AllReal x) (hy : AllNonzero y) :
    AllReal (Host.divf x y) :=
  allReal_divf x y hx hy

/-- The reciprocal square root of a positive array is a positive array. -/
theorem allPos_rsqrt (x : FVec Ideal s φ) (hx : AllPos x) : AllPos (Host.rsqrt x) := by
  intro i
  obtain ⟨r, hr, e⟩ := hx i
  refine ⟨(Real.sqrt r)⁻¹, inv_pos.mpr (Real.sqrt_pos.mpr hr), ?_⟩
  show Ideal.rsqrt (x i) = _
  rw [e]; exact rsqrt_coe_of_pos hr

/-- The exact scatter-add of nonnegative updates into a nonnegative array is nonnegative. -/
theorem allNonneg_scatterAdd {si u : Shape} {w : Nat} (d : ScatterDims s si u) (x : FVec Ideal s φ)
    (idx : IVec si w) (upd : FVec Ideal u φ) (hx : AllNonneg x) (hu : AllNonneg upd) :
    AllNonneg (Host.scatterAdd d x idx upd) := by
  refine (allReal_scatterAdd d x idx upd hx.allReal hu.allReal).allNonneg fun i => ?_
  show 0 ≤ x i + ∑ j ∈ Finset.univ.filter (fun j => d.resultIdx? j idx = some i), upd j
  refine add_nonneg ?_ (Finset.sum_nonneg fun j _ => ?_)
  · obtain ⟨a, ha, ea⟩ := hx i; rw [ea]; exact_mod_cast ha
  · obtain ⟨b, hb, eb⟩ := hu j; rw [eb]; exact_mod_cast hb

/-- The in-kernel exact sum-reduction of a real array is real: each entry is a finite sum of entries. -/
theorem allReal_idealReduceAdd {axes : List (Fin s.rank)} (h : s.Reduces axes t) (x : s.Idx → EReal)
    (hx : AllReal x) : AllReal (Ideal.reduceAdd h x) :=
  fun j => isReal_sum _ _ fun i _ => hx i

end Values

/-! ## From a printed finiteness test to a real array -/

section Finite

/-- The single-precision pattern of `+inf` is `⊤`. -/
theorem ofBits_f32_inf : Ideal.ofBits .f32 0x7F800000#32 = ⊤ := by
  simp [Ideal.ofBits, Ideal.ieee]

/-- An entry whose absolute value is below some bound is a real number: a bound is at most `⊤`, and the
    absolute value of either infinity is `⊤`. -/
theorem isReal_of_cmpf_olt_absf {φ : FTy} (a b : Ideal φ) (h : FloatOps.cmpf .olt (FloatOps.hostAbsf a) b = 1#1) :
    IsReal a := by
  have hlt : max a (-a) < b := by
    have hc : BitVec.ofBool (decide (max a (-a) < b)) = 1#1 := h
    by_contra hn
    rw [decide_eq_false hn] at hc
    exact absurd hc (by decide)
  exact isReal_of_abs_lt_top (lt_of_lt_of_le hlt le_top)

/-- `all (|x| < y)`, an `and`-reduction over every axis of the pointwise test, came out true: then `x` is a
    real array (whatever the bound `y` is: the positive infinity in a finiteness test). -/
theorem allReal_of_reduce_andi_abs_lt {s t u : Shape} {φ : FTy} {axes : List (Fin s.rank)} [Subsingleton t.Idx]
    (x y : FVec Ideal s φ) (init : u.Idx → BitVec 1) (h : s.ReducesTo axes t) (hu : 0 < u.numel) (j : t.Idx)
    (e : Host.reduce IntOp.andi (cmpf .olt (Host.absf x) y) init h hu j = 1#1) : AllReal x :=
  fun i => isReal_of_cmpf_olt_absf (x i) (y i) (Host.reduce_andi_all _ init h hu j e i)

end Finite

end Cert.Lib.AllReal

end
-- ==== Proof.Finite.lean ====
/-
  From the precondition to real arrays.

  The precondition is all (|x| < +inf) ∧ all (|w_q| < +inf) ∧ all (|w_k| < +inf) ∧ all (|w_v| < +inf), each `all` an
  and-reduction over every axis into one word, the four words joined by `and`. If the result is 1 every comparison came
  out 1, and an extended real whose absolute value lies below a bound is neither infinity: every entry of the four arrays
  is a real number.
-/
import proofs.«169094_j25701084299319_2_alg».proof.Pre_finite_inputs
import proofs.«169094_j25701084299319_2_alg».proof.Proof.LibAllReal
import Idealize.ShloMosaic.Lib.ValueIdx
import Idealize.ShloMosaic.Lib.Affine

noncomputable section

namespace Cert.Finite

open Idealize.ShloMosaic Cert.Lib.AllReal Cert.Pre_finite_inputs

variable [Cert.Pre_finite_inputs.Facts]
open Cert.Pre_finite_inputs.Facts

/-- The scalar shape has one index. -/
instance : Subsingleton S_.Idx := ⟨fun a b => funext fun d => d.elim0⟩

/-- If the precondition's word is 1, the four argument arrays are real. -/
theorem allReal_of_pre (x : FVec Ideal S4x4096x1024 .f32) (wq wk wv : FVec Ideal S1024x1024 .f32)
    (h : Cert.Pre_finite_inputs.fn (F := Ideal) x wq wk wv = fun _ => 1#1) :
    AllReal x ∧ AllReal wq ∧ AllReal wk ∧ AllReal wv := by
  have h0 := congrFun h ValueIdx.ix0
  dsimp only [fn, fn_part1] at h0
  obtain ⟨h012, h3⟩ := IntOp.andi_eq_one.mp h0
  obtain ⟨h01, h2⟩ := IntOp.andi_eq_one.mp h012
  obtain ⟨hx, h1⟩ := IntOp.andi_eq_one.mp h01
  exact ⟨allReal_of_reduce_andi_abs_lt _ _ _ _ _ _ hx, allReal_of_reduce_andi_abs_lt _ _ _ _ _ _ h1,
    allReal_of_reduce_andi_abs_lt _ _ _ _ _ _ h2, allReal_of_reduce_andi_abs_lt _ _ _ _ _ _ h3⟩

end Cert.Finite

end
-- ==== Proof.LibSumBlocks.lean ====
/-
  A sum over `Fin n`, where n = a · b, regrouped as a sum over a blocks of b consecutive indices:
      Σ_{k < n} g k = Σ_{c < a} Σ_{d < b} g (c · b + d).
  It holds in every commutative additive monoid, so in particular for sums of extended reals, where no term needs to be finite.
-/
import Mathlib.Algebra.BigOperators.Fin

namespace Cert.Lib

/-- The k-th index of block c. -/
def blockIdx {a b n : ℕ} (h : a * b = n) (c : Fin a) (d : Fin b) : Fin n :=
  ⟨c.val * b + d.val, by
    have hc := c.isLt
    have hd := d.isLt
    calc c.val * b + d.val < c.val * b + b := Nat.add_lt_add_left hd _
      _ = (c.val + 1) * b := (Nat.succ_mul _ _).symm
      _ ≤ a * b := Nat.mul_le_mul_right _ hc
      _ = n := h⟩

@[simp] theorem blockIdx_val {a b n : ℕ} (h : a * b = n) (c : Fin a) (d : Fin b) : (blockIdx h c d).val = c.val * b + d.val := rfl

/-- A sum over `Fin (a * b)` is the sum over the a blocks of the sums over each block's b indices. -/
theorem sum_fin_blocks {M : Type*} [AddCommMonoid M] {a b n : ℕ} (h : a * b = n) (g : Fin n → M) :
    ∑ k : Fin n, g k = ∑ c : Fin a, ∑ d : Fin b, g (blockIdx h c d) := by
  subst h
  rw [← Fintype.sum_prod_type', ← finProdFinEquiv.sum_comp]
  refine Finset.sum_congr rfl fun p _ => congrArg g (Fin.ext ?_)
  show p.2.val + b * p.1.val = p.1.val * b + p.2.val
  rw [Nat.mul_comm, Nat.add_comm]

end Cert.Lib
-- ==== Proof.Spec.lean ====
/-
  The mathematics of the certificate, with no program in sight.

  x : [4, 4096, 1024] and three weights w : [1024, 1024]. Write p_w(b, t, d) = Σ_c x(b, t, c) · w(c, d) for a projection.
  The reference computes, per batch b,   R(b, i, d) = Σ_t ((Σ_e p_q(b, i, e) · p_k(b, t, e)) · √1024) · p_v(b, t, d),
  the kernel                            Y(b, i, d) = (Σ_e p_q(b, i, e) · (Σ_t p_k(b, t, e) · p_v(b, t, d))) · 32.
  Over the reals these agree: distribute the scale and the factor p_v(b, t, d) into the inner sum, exchange the two finite
  sums, and √1024 = 32. Over the extended reals distributivity fails at the infinities, so the law is proved for arrays
  all of whose entries are real numbers, which is what the precondition provides.

  Two smaller laws serve the kernel's arithmetic. It multiplies matrices in three passes, a·b + a·(b − b) + (a − a)·b:
  for real entries the last two vanish. And it accumulates Σ_t over eight tiles of 512 rows, adding tile after tile to a
  block that starts at zero: the partial sums `psum`, whose last one is the whole sum regrouped in blocks.
-/
import proofs.«169094_j25701084299319_2_alg».proof.Proof.LibAllReal
import proofs.«169094_j25701084299319_2_alg».proof.Proof.LibSumBlocks
import Idealize.ShloMosaic.Lib.ValueIdx

noncomputable section

namespace Cert.Spec

open Idealize.ShloMosaic Idealize.ShloMosaic.ValueIdx Cert.Lib.AllReal Cert.Lib

/-! ## Sums of extended reals that are real -/

/-- The coercion of a finite sum of reals is the sum of the coercions. -/
theorem coe_sum {ι : Type*} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- A real number minus itself is zero (false at the infinities). -/
theorem sub_self_of_isReal {x : EReal} (h : IsReal x) : x - x = 0 := by
  obtain ⟨r, rfl⟩ := h
  rw [← EReal.coe_sub, sub_self, EReal.coe_zero]

/-- THE THREE-PASS PRODUCT: with real entries, a·b + a·(b − b) + (a − a)·b is a·b. -/
theorem three_pass {ι : Type*} [Fintype ι] (a b : ι → EReal) (ha : ∀ r, IsReal (a r)) (hb : ∀ r, IsReal (b r)) :
    (∑ r, a r * b r + ∑ r, a r * (b r - b r)) + ∑ r, (a r - a r) * b r = ∑ r, a r * b r := by
  have ea : ∀ r, a r - a r = 0 := fun r => sub_self_of_isReal (ha r)
  have eb : ∀ r, b r - b r = 0 := fun r => sub_self_of_isReal (hb r)
  simp only [ea, eb, mul_zero, zero_mul, Finset.sum_const_zero, add_zero]

/-! ## Partial sums over the first tiles -/

/-- The sum of `P` over the tiles numbered at most `n`. -/
def psum {N : ℕ} (P : Fin N → EReal) (n : ℕ) : EReal := ∑ s ∈ Finset.univ.filter (fun s : Fin N => s.val ≤ n), P s

/-- After the first tile it is that tile's term. -/
theorem psum_zero {N : ℕ} (P : Fin N → EReal) (h : 0 < N) : psum P 0 = P ⟨0, h⟩ := by
  unfold psum
  have e : Finset.univ.filter (fun s : Fin N => s.val ≤ 0) = {⟨0, h⟩} := by
    ext s
    simp only [Finset.mem_filter, Finset.mem_univ, true_and, Finset.mem_singleton, Fin.ext_iff]
    omega
  rw [e, Finset.sum_singleton]

/-- One more tile adds its term. -/
theorem psum_succ {N : ℕ} (P : Fin N → EReal) (n : ℕ) (h : n + 1 < N) : psum P (n + 1) = psum P n + P ⟨n + 1, h⟩ := by
  unfold psum
  have e : Finset.univ.filter (fun s : Fin N => s.val ≤ n + 1) = insert ⟨n + 1, h⟩ (Finset.univ.filter (fun s : Fin N => s.val ≤ n)) := by
    ext s
    simp only [Finset.mem_filter, Finset.mem_univ, true_and, Finset.mem_insert, Fin.ext_iff]
    omega
  rw [e, Finset.sum_insert (by simp), add_comm]

/-- After the last tile it is the whole sum. -/
theorem psum_last {N : ℕ} (P : Fin N → EReal) (n : ℕ) (h : N ≤ n + 1) : psum P n = ∑ s, P s := by
  unfold psum
  rw [Finset.filter_true_of_mem (fun s _ => by have := s.isLt; omega)]

/-! ## The arrays and the two sides -/

abbrev A3 : Type := (⟨3, ![4, 4096, 1024]⟩ : Shape).Idx → EReal
abbrev A2 : Type := (⟨2, ![1024, 1024]⟩ : Shape).Idx → EReal
abbrev K3 : Type := (⟨3, ![4, 1024, 1024]⟩ : Shape).Idx → EReal

/-- A projection: row (b, t) of `x` against column `d` of `w`. -/
def proj (x : A3) (w : A2) (b : Fin 4) (t : Fin 4096) (d : Fin 1024) : EReal := ∑ c : Fin 1024, x (ix3 b t c) * w (ix2 c d)

/-- The projections as an array. -/
def projArr (x : A3) (w : A2) : A3 := fun i => proj x w (i 0) (i 1) (i 2)

/-- Row `r` of tile `s` is row s·512 + r of the 4096. -/
abbrev trow (s : Fin 8) (r : Fin 512) : Fin 4096 := blockIdx (show 8 * 512 = 4096 from rfl) s r

/-- One tile's contribution to kᵀv: the 512 rows of tile `s`. -/
def tile (x : A3) (wk wv : A2) (b : Fin 4) (e d : Fin 1024) (s : Fin 8) : EReal :=
  ∑ r : Fin 512, proj x wk b (trow s r) e * proj x wv b (trow s r) d

/-- kᵀv per batch, as the sum of its eight tiles. -/
def kv (x : A3) (wk wv : A2) (b : Fin 4) (e d : Fin 1024) : EReal := ∑ s : Fin 8, tile x wk wv b e d s

/-- kᵀv as an array. -/
def kvArr (x : A3) (wk wv : A2) : K3 := fun j => kv x wk wv (j 0) (j 1) (j 2)

/-- The kernel's scale, the single-precision pattern of 32. -/
abbrev scale : EReal := Ideal.ofBits .f32 0x42000000#32

/-- The reference's scale, the host's square root of the single-precision pattern of 1024. -/
abbrev rootD : EReal := Ideal.sqrt (Ideal.ofBits .f32 0x44800000#32)

/-- THE KERNEL'S RESULT at (b, i, d): (q · kᵀv) · 32. -/
def Yentry (x : A3) (wq wk wv : A2) (b : Fin 4) (i : Fin 4096) (d : Fin 1024) : EReal :=
  (∑ e : Fin 1024, proj x wq b i e * kv x wk wv b e d) * scale

/-- THE REFERENCE'S RESULT at (b, i, d): ((q · kᵀ) · √1024) · v. -/
def Rentry (x : A3) (wq wk wv : A2) (b : Fin 4) (i : Fin 4096) (d : Fin 1024) : EReal :=
  ∑ t : Fin 4096, ((∑ e : Fin 1024, proj x wq b i e * proj x wk b t e) * rootD) * proj x wv b t d

/-- The kernel's result as an array. -/
def Y (x : A3) (wq wk wv : A2) : A3 := fun j => Yentry x wq wk wv (j 0) (j 1) (j 2)

/-- The reference's result as an array. -/
def R (x : A3) (wq wk wv : A2) : A3 := fun j => Rentry x wq wk wv (j 0) (j 1) (j 2)

/-! ## Real inputs give real intermediates -/

theorem isReal_proj {x : A3} {w : A2} (hx : AllReal x) (hw : AllReal w) (b : Fin 4) (t : Fin 4096) (d : Fin 1024) :
    IsReal (proj x w b t d) :=
  isReal_sum _ _ fun c _ => IsReal.mul (hx _) (hw _)

theorem isReal_tile {x : A3} {wk wv : A2} (hx : AllReal x) (hk : AllReal wk) (hv : AllReal wv) (b : Fin 4) (e d : Fin 1024) (s : Fin 8) :
    IsReal (tile x wk wv b e d s) :=
  isReal_sum _ _ fun r _ => IsReal.mul (isReal_proj hx hk _ _ _) (isReal_proj hx hv _ _ _)

theorem isReal_kv {x : A3} {wk wv : A2} (hx : AllReal x) (hk : AllReal wk) (hv : AllReal wv) (b : Fin 4) (e d : Fin 1024) :
    IsReal (kv x wk wv b e d) :=
  isReal_sum _ _ fun s _ => isReal_tile hx hk hv b e d s

theorem allReal_projArr {x : A3} {w : A2} (hx : AllReal x) (hw : AllReal w) : AllReal (projArr x w) :=
  fun i => isReal_proj hx hw _ _ _

theorem allReal_kvArr {x : A3} {wk wv : A2} (hx : AllReal x) (hk : AllReal wk) (hv : AllReal wv) : AllReal (kvArr x wk wv) :=
  fun j => isReal_kv hx hk hv _ _ _

/-! ## The scales -/

/-- The pattern 0x42000000 is the real 32. -/
theorem scale_eq : scale = ((32 : ℝ) : EReal) := by
  simp [Ideal.ofBits, Ideal.ieee]
  rw [← EReal.coe_mul]; norm_num

/-- The square root of the pattern of 1024 is the real 32. -/
theorem rootD_eq : rootD = ((32 : ℝ) : EReal) := by
  have h : Ideal.ofBits .f32 0x44800000#32 = ((1024 : ℝ) : EReal) := by
    simp [Ideal.ofBits, Ideal.ieee]
    rw [← EReal.coe_mul]; norm_num
  unfold rootD
  rw [h, Ideal.sqrt_coe, if_neg (by norm_num)]
  have : Real.sqrt 1024 = 32 := by
    rw [show (1024 : ℝ) = 32 ^ 2 by norm_num]; exact Real.sqrt_sq (by norm_num)
  rw [this]

/-! ## The law -/

/-- Over the reals: distribute, exchange the sums. -/
theorem real_law {ι κ : Type*} [Fintype ι] [Fintype κ] (q : κ → ℝ) (k : ι → κ → ℝ) (v : ι → ℝ) (g : ℝ) :
    ∑ t, ((∑ e, q e * k t e) * g) * v t = (∑ e, q e * ∑ t, k t e * v t) * g := by
  simp only [Finset.sum_mul, Finset.mul_sum]
  rw [Finset.sum_comm]
  exact Finset.sum_congr rfl fun e _ => Finset.sum_congr rfl fun t _ => by ring

/-- The same over the extended reals, for real entries. -/
theorem ereal_law {ι κ : Type*} [Fintype ι] [Fintype κ] (q : κ → EReal) (k : ι → κ → EReal) (v : ι → EReal) (g : ℝ)
    (hq : ∀ e, IsReal (q e)) (hk : ∀ t e, IsReal (k t e)) (hv : ∀ t, IsReal (v t)) :
    ∑ t, ((∑ e, q e * k t e) * (g : EReal)) * v t = (∑ e, q e * ∑ t, k t e * v t) * (g : EReal) := by
  choose q' hq' using hq
  choose k' hk' using hk
  choose v' hv' using hv
  obtain rfl : q = fun e => ((q' e : ℝ) : EReal) := funext hq'
  obtain rfl : k = fun t e => ((k' t e : ℝ) : EReal) := funext fun t => funext fun e => hk' t e
  obtain rfl : v = fun t => ((v' t : ℝ) : EReal) := funext hv'
  simp only [← EReal.coe_mul, ← coe_sum]
  exact congrArg _ (real_law q' k' v' g)

/-- The sum over the 4096 rows, regrouped in eight tiles of 512. -/
theorem kv_eq_sum (x : A3) (wk wv : A2) (b : Fin 4) (e d : Fin 1024) :
    kv x wk wv b e d = ∑ t : Fin 4096, proj x wk b t e * proj x wv b t d :=
  (sum_fin_blocks (show 8 * 512 = 4096 from rfl) fun t => proj x wk b t e * proj x wv b t d).symm

/-- THE TWO SIDES AGREE on real inputs, entry by entry. -/
theorem Yentry_eq_Rentry {x : A3} {wq wk wv : A2} (hx : AllReal x) (hq : AllReal wq) (hk : AllReal wk) (hv : AllReal wv)
    (b : Fin 4) (i : Fin 4096) (d : Fin 1024) : Yentry x wq wk wv b i d = Rentry x wq wk wv b i d := by
  unfold Yentry Rentry
  simp only [kv_eq_sum]
  rw [scale_eq, rootD_eq]
  exact (ereal_law (fun e => proj x wq b i e) (fun t e => proj x wk b t e) (fun t => proj x wv b t d) 32
    (fun e => isReal_proj hx hq _ _ _) (fun t e => isReal_proj hx hk _ _ _) (fun t => isReal_proj hx hv _ _ _)).symm

/-- The two sides agree on real inputs. -/
theorem Y_eq_R {x : A3} {wq wk wv : A2} (hx : AllReal x) (hq : AllReal wq) (hk : AllReal wk) (hv : AllReal wv) :
    Y x wq wk wv = R x wq wk wv :=
  funext fun j => Yentry_eq_Rentry hx hq hk hv (j 0) (j 1) (j 2)

end Cert.Spec

end
-- ==== Proof.RefValue.lean ====
/-
  The reference's result is the specification's `R`.

  Its nine host operations, read at an index one after the other: three projections x · w (sums over the 1024 columns of
  x), their batched product q · kᵀ (a sum over the 1024 features), the scale √1024 broadcast and multiplied in, and the
  batched product with v (a sum over the 4096 rows). Each generated read-at-an-index lemma gives the operation as a sum
  over the contracted extent at operand indices built from the output index; written by coordinates these are the
  indices the specification uses.
-/
import proofs.«169094_j25701084299319_2_alg».proof.Proof.Gen.ReferenceIdeal.Read
import proofs.«169094_j25701084299319_2_alg».proof.Proof.Spec

noncomputable section

namespace Cert.ReferenceIdeal.RefValue

open Cert.ReferenceIdeal Cert.ReferenceIdeal.Read Idealize.ShloMosaic Idealize.ShloMosaic.ValueIdx Cert.Spec

/-- A projection x · w at (b, t, d). -/
theorem v0_at (x : FVec Ideal S4x4096x1024 .f32) (w : FVec Ideal S1024x1024 .f32) (b : Fin 4) (t : Fin 4096) (d : Fin 1024) :
    val_main_v0 (F := Ideal) x w (ix3 b t d) = proj x w b t d := by
  rw [val_main_v0_apply]
  unfold proj
  refine Finset.sum_congr rfl fun c _ => ?_
  rw [show lidx_main_v0 (ix3 b t d) c = ix3 b t c from funext fun a => Fin.ext (by
        match a with | ⟨0, _⟩ => rfl | ⟨1, _⟩ => rfl | ⟨2, _⟩ => rfl),
    show ridx_main_v0 (ix3 b t d) c = ix2 c d from funext fun a => Fin.ext (by
        match a with | ⟨0, _⟩ => rfl | ⟨1, _⟩ => rfl)]

/-- The three projections are one operation on different weights. -/
theorem v1_at (x : FVec Ideal S4x4096x1024 .f32) (w : FVec Ideal S1024x1024 .f32) (b : Fin 4) (t : Fin 4096) (d : Fin 1024) :
    val_main_v1 (F := Ideal) x w (ix3 b t d) = proj x w b t d := v0_at x w b t d
theorem v2_at (x : FVec Ideal S4x4096x1024 .f32) (w : FVec Ideal S1024x1024 .f32) (b : Fin 4) (t : Fin 4096) (d : Fin 1024) :
    val_main_v2 (F := Ideal) x w (ix3 b t d) = proj x w b t d := v0_at x w b t d

/-- q · kᵀ at (b, i, t): the sum over the features. -/
theorem v4_at (x : FVec Ideal S4x4096x1024 .f32) (wq wk : FVec Ideal S1024x1024 .f32) (b : Fin 4) (i t : Fin 4096) :
    val_main_v4 (F := Ideal) x wq wk (ix3 b i t) = ∑ e : Fin 1024, proj x wq b i e * proj x wk b t e := by
  rw [val_main_v4_apply]
  refine Finset.sum_congr rfl fun e _ => ?_
  rw [show lidx_main_v4 (ix3 b i t) e = ix3 b i e from funext fun a => Fin.ext (by
        match a with | ⟨0, _⟩ => rfl | ⟨1, _⟩ => rfl | ⟨2, _⟩ => rfl),
    show ridx_main_v4 (ix3 b i t) e = ix3 b t e from funext fun a => Fin.ext (by
        match a with | ⟨0, _⟩ => rfl | ⟨1, _⟩ => rfl | ⟨2, _⟩ => rfl),
    v0_at, v1_at]

/-- The broadcast scale is the square root of the pattern of 1024, everywhere. -/
theorem v5_at (j : S4x4096x4096.Idx) : val_main_v5 (F := Ideal) j = rootD := by
  rw [val_main_v5_apply, val_main_v3_apply, val_main_cst_apply]
  rfl

/-- The scaled scores at (b, i, t). -/
theorem v6_at (x : FVec Ideal S4x4096x1024 .f32) (wq wk : FVec Ideal S1024x1024 .f32) (b : Fin 4) (i t : Fin 4096) :
    val_main_v6 (F := Ideal) x wq wk (ix3 b i t) = (∑ e : Fin 1024, proj x wq b i e * proj x wk b t e) * rootD := by
  rw [val_main_v6_apply, v4_at, v5_at]
  rfl

/-- The result at (b, i, d): the sum over the rows. -/
theorem v7_at (x : FVec Ideal S4x4096x1024 .f32) (wq wk wv : FVec Ideal S1024x1024 .f32) (b : Fin 4) (i : Fin 4096) (d : Fin 1024) :
    val_main_v7 (F := Ideal) x wq wk wv (ix3 b i d) = Rentry x wq wk wv b i d := by
  rw [val_main_v7_apply]
  unfold Rentry
  refine Finset.sum_congr rfl fun t _ => ?_
  rw [show lidx_main_v7 (ix3 b i d) t = ix3 b i t from funext fun a => Fin.ext (by
        match a with | ⟨0, _⟩ => rfl | ⟨1, _⟩ => rfl | ⟨2, _⟩ => rfl),
    show ridx_main_v7 (ix3 b i d) t = ix3 b t d from funext fun a => Fin.ext (by
        match a with | ⟨0, _⟩ => rfl | ⟨1, _⟩ => rfl | ⟨2, _⟩ => rfl),
    v6_at, v2_at]

/-- THE REFERENCE IS `R`. -/
theorem ref_eq (x : FVec Ideal S4x4096x1024 .f32) (wq wk wv : FVec Ideal S1024x1024 .f32) :
    val_main_v7 (F := Ideal) x wq wk wv = R x wq wk wv := by
  funext j
  obtain ⟨b, i, d, rfl⟩ : ∃ (b : Fin 4) (i : Fin 4096) (d : Fin 1024), j = ix3 b i d := ⟨j 0, j 1, j 2, eq_ix3 j⟩
  exact v7_at x wq wk wv b i d

end Cert.ReferenceIdeal.RefValue

end
-- ==== Proof.KernelRun.lean ====
/-
  The idealized kernel's run with its result array NAMED.

  @main is three host conversions and two pipelined regions. The generated frame walks the buffer contents through the
  segment boundaries (launch, after the conversions, after region 0, after region 1) and states that the four
  argument arrays end as launched. The same walk also reaches the result array: after region 1 it holds what that
  region's write-backs leave, the fold of the flushed blocks of output window 2. This module states the run with that
  extra conjunct, by the library's launch theorem over the generated segments; nothing else is proved here.
-/
import proofs.«169094_j25701084299319_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The result array is output window 2 of region 1, so after that region it holds the fold of the window's flushed blocks. -/
theorem result_at_exit (c : Dev nD) :
    W3 m ρ c (Proc.devRef .tc main_v4) = (dat1 (V2 m ρ) c).arrAt 2 cfg1.N := W3_arr m ρ c 2

set_option backward.isDefEq.respectTransparency.types false in
/-- Every weakly fair execution of @main terminates, nothing faulting, with the result array at what region 1's
    write-backs leave and the argument arrays as launched. -/
theorem run : θ_run defs (onTc (τ := τ) (main (F := F))) ⟨m, fun _ => 0, ρ⟩ (fun r => ∀ c : Dev nD,
      r.2.mem ((c.tc : Thread nD τ).loc main_v4) = (dat1 (V2 m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨(h c _ (mem_uc main_v4 (by decide))).trans (result_at_exit m ρ c),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c)⟩)

end Cert.KernelIdeal.RunValue

end
-- ==== Proof.Pieces0.lean ====
/-
  What each control case of region 0's body leaves in its two output blocks, as the body's arithmetic of the blocks it
  loads — at any float instance.

  The body has one conditional: at the first tile of a batch it first stores zeros to the running [1, 1024, 1024] block.
  Then, in both cases, it loads the tile and the three weights, loads the running block, and stores to it the block plus
  the tile's three-pass product; and it stores the tile's q projection to the q block. So
    * the q block ends at the projection (one store covering the block), in both cases;
    * the running block ends at (zeros + the tile's product) at a first tile — the load reads back the zeros just
      stored — and at (what the previous point left + the tile's product) otherwise.
  Each store covers its whole block from offset zero, so the block after the stores is the last store's value.
-/
import proofs.«169094_j25701084299319_2_alg».proof.Proof.Gen.KernelIdeal.Frame
import Idealize.ShloMosaic.Lib.Pipeline.Value
import Idealize.ShloMosaic.Lib.Tactic

set_option maxRecDepth 16384

noncomputable section

namespace Cert.KernelIdeal.Pieces0

open Cert.KernelIdeal Cert.KernelIdeal.Gen Idealize.ShloMosaic Idealize.ShloMosaic.TcCoe Idealize.SL.Sem
open Idealize.ShloMosaic.Pipeline (Dat)

variable {F : FTy → Type} [FloatOps F]

/-- The zero offsets of a rank-3 block. -/
theorem hz3 : (![0, 0, 0] : Fin 3 → Nat) = fun _ => 0 := funext fun a => by fin_cases a <;> rfl
/-- The zero offsets of a rank-2 block. -/
theorem hz2 : (![0, 0] : Fin 2 → Nat) = fun _ => 0 := funext fun a => by fin_cases a <;> rfl

/-- At a first tile the q block ends at the tile's q projection. -/
theorem out_A_4 (c : Dev nD) (i : grid0.Coords) (a2 : Memref sig .tc .vmem S1x512x1024 .f32) (h2 : a2.IsWhole) (a3 : Memref sig .tc .vmem S1024x1024 .bf16) (h3 : a3.IsWhole) (a4 : Memref sig .tc .vmem S1024x1024 .bf16) (h4 : a4.IsWhole) (a5 : Memref sig .tc .vmem S1024x1024 .bf16) (h5 : a5.IsWhole) (a6 : Memref sig .tc .vmem S1x512x1024 .f32) (h6 : a6.IsWhole) (a7 : Memref sig .tc .vmem S1x1024x1024 .f32) (h7 : a7.IsWhole) (hc : cond0_0 i) (x0 : Vec F S1x512x1024 .f32) (x1 : Vec F S1024x1024 .bf16) (x2 : Vec F S1024x1024 .bf16) (x3 : Vec F S1024x1024 .bf16) :
    out0_A_4 c i a2 h2 a3 h3 a4 h4 a5 h5 a6 h6 a7 h7 hc x0 x1 x2 x3 = k0_pay1 (k0_pay4 x0 x1) := by
  unfold out0_A_4
  rw [View.read_writes_eq_canon _ _ _ (cover0_A_4 c i a2 h2 a3 h3 a4 h4 a5 h5 a6 h6 a7 h7 hc x0 x1 x2 x3)]
  unfold kernelRun0_A
  dsimp only
  sl_unfold_words
  rw [View.canon_unit_zero hz3]
  simp only [View.readAt_eq_ld, h2.read_unread, h3.read_unread, View.ld_unit_zero (S := S1x512x1024) hz3, View.ld_unit_zero (S := S1024x1024) hz2]

/-- At a first tile the running block ends at zeros plus the tile's product. -/
theorem out_A_5 (c : Dev nD) (i : grid0.Coords) (a2 : Memref sig .tc .vmem S1x512x1024 .f32) (h2 : a2.IsWhole) (a3 : Memref sig .tc .vmem S1024x1024 .bf16) (h3 : a3.IsWhole) (a4 : Memref sig .tc .vmem S1024x1024 .bf16) (h4 : a4.IsWhole) (a5 : Memref sig .tc .vmem S1024x1024 .bf16) (h5 : a5.IsWhole) (a6 : Memref sig .tc .vmem S1x512x1024 .f32) (h6 : a6.IsWhole) (a7 : Memref sig .tc .vmem S1x1024x1024 .f32) (h7 : a7.IsWhole) (hc : cond0_0 i) (x0 : Vec F S1x512x1024 .f32) (x1 : Vec F S1024x1024 .bf16) (x2 : Vec F S1024x1024 .bf16) (x3 : Vec F S1024x1024 .bf16) :
    out0_A_5 c i a2 h2 a3 h3 a4 h4 a5 h5 a6 h6 a7 h7 hc x0 x1 x2 x3 = k0_pay5 x0 x2 x3 k0_pay2 := by
  unfold out0_A_5
  rw [View.read_writes_eq_canon _ _ _ (cover0_A_5 c i a2 h2 a3 h3 a4 h4 a5 h5 a6 h6 a7 h7 hc x0 x1 x2 x3)]
  unfold kernelRun0_A
  dsimp only
  sl_unfold_words
  rw [View.canon_cons_unit_zero (S := S1x1024x1024) hz3, View.readCov_unit_zero (S := S1x1024x1024) _ hz3]
  simp only [View.readAt_eq_ld, h2.read_unread, h4.read_unread, h5.read_unread, View.ld_unit_zero (S := S1x512x1024) hz3, View.ld_unit_zero (S := S1024x1024) hz2]

/-- At a later tile the q block ends at the tile's q projection. -/
theorem out_B_4 (c : Dev nD) (i : grid0.Coords) (a2 : Memref sig .tc .vmem S1x512x1024 .f32) (h2 : a2.IsWhole) (a3 : Memref sig .tc .vmem S1024x1024 .bf16) (h3 : a3.IsWhole) (a4 : Memref sig .tc .vmem S1024x1024 .bf16) (h4 : a4.IsWhole) (a5 : Memref sig .tc .vmem S1024x1024 .bf16) (h5 : a5.IsWhole) (a6 : Memref sig .tc .vmem S1x512x1024 .f32) (h6 : a6.IsWhole) (a7 : Memref sig .tc .vmem S1x1024x1024 .f32) (h7 : a7.IsWhole) (hc : ¬cond0_0 i) (x0 : Vec F S1x512x1024 .f32) (x1 : Vec F S1024x1024 .bf16) (x2 : Vec F S1024x1024 .bf16) (x3 : Vec F S1024x1024 .bf16) (xo : Vec F S1x1024x1024 .f32) :
    out0_B_4 c i a2 h2 a3 h3 a4 h4 a5 h5 a6 h6 a7 h7 hc x0 x1 x2 x3 xo = k0_pay1 (k0_pay4 x0 x1) := by
  unfold out0_B_4
  rw [View.read_writes_eq_canon _ _ _ (cover0_B_4 c i a2 h2 a3 h3 a4 h4 a5 h5 a6 h6 a7 h7 hc x0 x1 x2 x3 xo)]
  unfold kernelRun0_B
  dsimp only
  sl_unfold_words
  rw [View.canon_unit_zero hz3]
  simp only [View.readAt_eq_ld, h2.read_unread, h3.read_unread, View.ld_unit_zero (S := S1x512x1024) hz3, View.ld_unit_zero (S := S1024x1024) hz2]

/-- At a later tile the running block ends at what it held plus the tile's product. -/
theorem out_B_5 (c : Dev nD) (i : grid0.Coords) (a2 : Memref sig .tc .vmem S1x512x1024 .f32) (h2 : a2.IsWhole) (a3 : Memref sig .tc .vmem S1024x1024 .bf16) (h3 : a3.IsWhole) (a4 : Memref sig .tc .vmem S1024x1024 .bf16) (h4 : a4.IsWhole) (a5 : Memref sig .tc .vmem S1024x1024 .bf16) (h5 : a5.IsWhole) (a6 : Memref sig .tc .vmem S1x512x1024 .f32) (h6 : a6.IsWhole) (a7 : Memref sig .tc .vmem S1x1024x1024 .f32) (h7 : a7.IsWhole) (hc : ¬cond0_0 i) (x0 : Vec F S1x512x1024 .f32) (x1 : Vec F S1024x1024 .bf16) (x2 : Vec F S1024x1024 .bf16) (x3 : Vec F S1024x1024 .bf16) (xo : Vec F S1x1024x1024 .f32) :
    out0_B_5 c i a2 h2 a3 h3 a4 h4 a5 h5 a6 h6 a7 h7 hc x0 x1 x2 x3 xo = k0_pay5 x0 x2 x3 xo := by
  unfold out0_B_5
  rw [View.read_writes_eq_canon _ _ _ (cover0_B_5 c i a2 h2 a3 h3 a4 h4 a5 h5 a6 h6 a7 h7 hc x0 x1 x2 x3 xo)]
  unfold kernelRun0_B
  dsimp only
  sl_unfold_words
  rw [View.canon_unit_zero hz3]
  simp only [View.readAt_eq_ld, h2.read_unread, h4.read_unread, h5.read_unread, h7.read_unread, View.ld_unit_zero (S := S1x512x1024) hz3, View.ld_unit_zero (S := S1024x1024) hz2, View.ld_unit_zero (S := S1x1024x1024) hz3]

end Cert.KernelIdeal.Pieces0

end
-- ==== Proof.LibDotSum.lean ====
/-
  A matrix product's sum over the contraction index, re-indexed over the contracted extent: for the plain dimension numbers
  (left operand contracted on its columns, right operand on its rows, no batch axes) the sum over the one-axis contraction
  shape of the operands' products at the dot's operand indices is the sum over `kk : Fin K` of the left operand at
  (row of the output index, `kk`) times the right operand at (`kk`, column of the output index).
-/
import Idealize.ShloMosaic.Lib.ValueIdx
import Idealize.ShloMosaic.PureOps.Ideal.Laws

namespace Cert.Lib.DotSum

open Idealize.ShloMosaic Idealize.ShloMosaic.ValueIdx

variable {M K N : Nat} (d : DotDims ⟨2, ![M, K]⟩ ⟨2, ![K, N]⟩ ⟨2, ![M, N]⟩)

/-- The contraction shape has one axis, -/
theorem contr_rank (hlc : d.lhsContracting = [1]) : d.contr.rank = 1 := by
  rw [d.rank_contr, hlc]; rfl

/-- of the contracted extent. -/
theorem contr_size (hlc : d.lhsContracting = [1]) :
    d.contr.size ⟨0, by rw [contr_rank d hlc]; exact Nat.one_pos⟩ = K := by
  have h := d.size_contr 0 (by rw [hlc]; exact Nat.one_pos)
  rw [h, List.getElem_of_eq hlc]; rfl

/-- A coordinate of an output index depends on the axis's number only. -/
theorem out_coord (j : (⟨2, ![M, N]⟩ : Shape).Idx) (p q : Nat) (hp : p < 2) (hq : q < 2) (h : p = q) :
    (j ⟨p, hp⟩).val = (j ⟨q, hq⟩).val := by subst h; rfl

/-- The left operand's index reads the output's row on its rows, -/
theorem lhs_row (hln : d.lhsNonContracting = [0]) (hlb : d.lhsBatch = [])
    (j : (⟨2, ![M, N]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  simp only [Fin.val_cast]
  exact out_coord j _ _ _ _ (by rw [hlb, hln]; rfl)

/-- the right operand's the output's column on its columns. -/
theorem rhs_col (hln : d.lhsNonContracting = [0]) (hrn : d.rhsNonContracting = [1]) (hlb : d.lhsBatch = []) (hrb : d.rhsBatch = [])
    (j : (⟨2, ![M, N]⟩ : Shape).Idx) (k : d.contr.Idx) : (d.rhsIdx j k 1).val = (j 1).val := by
  unfold DotDims.rhsIdx
  rw [dif_neg (by rw [hrb]; exact List.not_mem_nil), dif_pos (by rw [hrn]; exact List.mem_singleton.mpr rfl)]
  simp only [Fin.val_cast]
  exact out_coord j _ _ _ _ (by rw [hlb, hln, hrn]; rfl)

/-- THE SUM, RE-INDEXED: over the contracted extent, the left operand along the output's row times the right operand down the
    output's column. -/
theorem dot_sum (hlc : d.lhsContracting = [1]) (hrc : d.rhsContracting = [0]) (hln : d.lhsNonContracting = [0])
    (hrn : d.rhsNonContracting = [1]) (hlb : d.lhsBatch = []) (hrb : d.rhsBatch = [])
    (l : (⟨2, ![M, K]⟩ : Shape).Idx → EReal) (r : (⟨2, ![K, N]⟩ : Shape).Idx → EReal) (j : (⟨2, ![M, N]⟩ : Shape).Idx) :
    (∑ k : d.contr.Idx, l (d.lhsIdx j k) * r (d.rhsIdx j k)) = ∑ kk : Fin K, l (ix2 (j 0) kk) * r (ix2 kk (j 1)) := by
  have hr := contr_rank d hlc
  have hs := contr_size d hlc
  rw [← Equiv.sum_comp (contrEquiv1 d K hr hs).symm]
  refine Finset.sum_congr rfl fun kk _ => ?_
  have hk := contrEquiv1_symm_val d K hr hs kk
  have el : d.lhsIdx j ((contrEquiv1 d K hr hs).symm kk) = ix2 (j 0) kk := funext fun a => Fin.ext (by
    match a with
    | ⟨0, _⟩ => exact lhs_row d hln hlb j _
    | ⟨1, _⟩ => exact (d.lhsIdx_val_of_single hlc j _).trans hk)
  have er : d.rhsIdx j ((contrEquiv1 d K hr hs).symm kk) = ix2 kk (j 1) := funext fun a => Fin.ext (by
    match a with
    | ⟨0, _⟩ => exact (d.rhsIdx_val_of_single hrc j _).trans hk
    | ⟨1, _⟩ => exact rhs_col d hln hrn hlb hrb j _)
  rw [el, er]; rfl

end Cert.Lib.DotSum
-- ==== Proof.LibDot2.lean ====
/-
  The two matrix products read at an index as a sum over the contracted extent, for the plain dimension numbers (left
  operand contracted on its columns, right operand on its rows, no batch axes): the kernel's product into a zero
  accumulator and the host's product are both the sum over `kk` of left (row, kk) times right (kk, column).
-/
import proofs.«169094_j25701084299319_2_alg».proof.Proof.LibDotSum

namespace Cert.Lib.DotSum

open Idealize.ShloMosaic Idealize.ShloMosaic.ValueIdx

variable {M K N : Nat} (d : DotDims ⟨2, ![M, K]⟩ ⟨2, ![K, N]⟩ ⟨2, ![M, N]⟩)

/-- The kernel's matrix product into a zero accumulator. -/
theorem matmul_zero_at (hlc : d.lhsContracting = [1]) (hrc : d.rhsContracting = [0]) (hln : d.lhsNonContracting = [0])
    (hrn : d.rhsNonContracting = [1]) (hlb : d.lhsBatch = []) (hrb : d.rhsBatch = []) {φ₁ φ₂ : FTy} (prec : Option ContractPrecision)
    (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ kk : Fin K, l (ix2 p kk) * r (ix2 kk q) :=
  (Ideal.matmul_constant_zero_apply d prec l r (ix2 p q)).trans (dot_sum d hlc hrc hln hrn hlb hrb l r (ix2 p q))

/-- The host's matrix product. -/
theorem dotGeneral_at (hlc : d.lhsContracting = [1]) (hrc : d.rhsContracting = [0]) (hln : d.lhsNonContracting = [0])
    (hrn : d.rhsNonContracting = [1]) (hlb : d.lhsBatch = []) (hrb : d.rhsBatch = []) {φ₁ φ₂ : FTy} (prec : Option ContractPrecision)
    (sched : HostSchedule) (l : FVec Ideal ⟨2, ![M, K]⟩ φ₁) (r : FVec Ideal ⟨2, ![K, N]⟩ φ₂) (p : Fin M) (q : Fin N) :
    FloatOps.dotGeneral d prec sched l r (ix2 p q) = ∑ kk : Fin K, l (ix2 p kk) * r (ix2 kk q) :=
  (Ideal.dotGeneral_apply d prec sched l r (ix2 p q)).trans (dot_sum d hlc hrc hln hrn hlb hrb l r (ix2 p q))

end Cert.Lib.DotSum
-- ==== Proof.LibDotSumT.lean ====
/-
  A matrix product contracted over the ROWS of both operands, read at an index as a sum over the contracted extent: for
  the dimension numbers "left operand contracted on its rows, right operand on its rows, no batch axes" — the product
  lᵀ · r of a [K, M] and a [K, N] array — the kernel's product into a zero accumulator at (p, q) is the sum over
  kk : Fin K of l(kk, p) · r(kk, q). Generic in the three extents.
-/
import Idealize.ShloMosaic.Lib.ValueIdx
import Idealize.ShloMosaic.PureOps.Ideal.Laws

namespace Cert.Lib.DotSumT

open Idealize.ShloMosaic Idealize.ShloMosaic.ValueIdx

variable {M K N : Nat} (d : DotDims ⟨2, ![K, M]⟩ ⟨2, ![K, N]⟩ ⟨2, ![M, N]⟩)

/-- The contraction shape has one axis, -/
theorem contr_rank (hlc : d.lhsContracting = [0]) : d.contr.rank = 1 := by
  rw [d.rank_contr, hlc]; rfl

/-- of the contracted extent. -/
theorem contr_size (hlc : d.lhsContracting = [0]) :
    d.contr.size ⟨0, by rw [contr_rank d hlc]; exact Nat.one_pos⟩ = K := by
  have h := d.size_contr 0 (by rw [hlc]; exact Nat.one_pos)
  rw [h, List.getElem_of_eq hlc]; rfl

/-- A coordinate of an output index depends on the axis's number only. -/
theorem out_coord (j : (⟨2, ![M, N]⟩ : Shape).Idx) (p q : Nat) (hp : p < 2) (hq : q < 2) (h : p = q) :
    (j ⟨p, hp⟩).val = (j ⟨q, hq⟩).val := by subst h; rfl

/-- The left operand's index reads the output's row on its columns, -/
theorem lhs_col (hln : d.lhsNonContracting = [1]) (hlb : d.lhsBatch = [])
    (j : (⟨2, ![M, N]⟩ : Shape).Idx) (k : d.contr.Idx) : (d.lhsIdx j k 1).val = (j 0).val := by
  unfold DotDims.lhsIdx
  rw [dif_neg (by rw [hlb]; exact List.not_mem_nil), dif_pos (by rw [hln]; exact List.mem_singleton.mpr rfl)]
  simp only [Fin.val_cast]
  exact out_coord j _ _ _ _ (by rw [hlb, hln]; rfl)

/-- the right operand's the output's column on its columns. -/
theorem rhs_col (hln : d.lhsNonContracting = [1]) (hrn : d.rhsNonContracting = [1]) (hlb : d.lhsBatch = []) (hrb : d.rhsBatch = [])
    (j : (⟨2, ![M, N]⟩ : Shape).Idx) (k : d.contr.Idx) : (d.rhsIdx j k 1).val = (j 1).val := by
  unfold DotDims.rhsIdx
  rw [dif_neg (by rw [hrb]; exact List.not_mem_nil), dif_pos (by rw [hrn]; exact List.mem_singleton.mpr rfl)]
  simp only [Fin.val_cast]
  exact out_coord j _ _ _ _ (by rw [hlb, hln, hrn]; rfl)

/-- THE SUM, RE-INDEXED: over the contracted extent, the left operand down the column numbered by the output's row times
    the right operand down the output's column. -/
theorem dot_sum (hlc : d.lhsContracting = [0]) (hrc : d.rhsContracting = [0]) (hln : d.lhsNonContracting = [1])
    (hrn : d.rhsNonContracting = [1]) (hlb : d.lhsBatch = []) (hrb : d.rhsBatch = [])
    (l : (⟨2, ![K, M]⟩ : Shape).Idx → EReal) (r : (⟨2, ![K, N]⟩ : Shape).Idx → EReal) (j : (⟨2, ![M, N]⟩ : Shape).Idx) :
    (∑ k : d.contr.Idx, l (d.lhsIdx j k) * r (d.rhsIdx j k)) = ∑ kk : Fin K, l (ix2 kk (j 0)) * r (ix2 kk (j 1)) := by
  have hr := contr_rank d hlc
  have hs := contr_size d hlc
  rw [← Equiv.sum_comp (contrEquiv1 d K hr hs).symm]
  refine Finset.sum_congr rfl fun kk _ => ?_
  have hk := contrEquiv1_symm_val d K hr hs kk
  have el : d.lhsIdx j ((contrEquiv1 d K hr hs).symm kk) = ix2 kk (j 0) := funext fun a => Fin.ext (by
    match a with
    | ⟨0, _⟩ => exact (d.lhsIdx_val_of_single hlc j _).trans hk
    | ⟨1, _⟩ => exact lhs_col d hln hlb j _)
  have er : d.rhsIdx j ((contrEquiv1 d K hr hs).symm kk) = ix2 kk (j 1) := funext fun a => Fin.ext (by
    match a with
    | ⟨0, _⟩ => exact (d.rhsIdx_val_of_single hrc j _).trans hk
    | ⟨1, _⟩ => exact rhs_col d hln hrn hlb hrb j _)
  rw [el, er]; rfl

/-- The kernel's product into a zero accumulator, contracted over the rows of both operands. -/
theorem matmul_zero_at (hlc : d.lhsContracting = [0]) (hrc : d.rhsContracting = [0]) (hln : d.lhsNonContracting = [1])
    (hrn : d.rhsNonContracting = [1]) (hlb : d.lhsBatch = []) (hrb : d.rhsBatch = []) {φ₁ φ₂ : FTy} (prec : Option ContractPrecision)
    (l : FVec Ideal ⟨2, ![K, M]⟩ φ₁) (r : FVec Ideal ⟨2, ![K, N]⟩ φ₂) (p : Fin M) (q : Fin N) :
    FloatOps.matmul d prec l r (constant ⟨2, ![M, N]⟩ .f32 0x00000000#32) (ix2 p q) = ∑ kk : Fin K, l (ix2 kk p) * r (ix2 kk q) :=
  (Ideal.matmul_constant_zero_apply d prec l r (ix2 p q)).trans (dot_sum d hlc hrc hln hrn hlb hrb l r (ix2 p q))

end Cert.Lib.DotSumT
-- ==== Proof.Body0.lean ====
/-
  Region 0's arithmetic, at one grid point, as functions of the blocks the body loads.

  The body loads a tile x0 : [1, 512, 1024] of x and the three weights (already in the narrow format, which at the ideal
  instance is no change). It forms the three projections of the tile, q0 = x0 · w_q, k0 = x0 · w_k, v0 = x0 · w_v
  ([512, 1024] each), stores q0, and adds to the running [1024, 1024] block the three-pass product of k0ᵀ and v0:
      k0ᵀ · v0 + k0ᵀ · (v0 − v0) + (k0 − k0)ᵀ · v0.
  Read at an index: a projection entry is a sum over the 1024 columns of the tile; an entry of a product contracted over
  the 512 rows is a sum over those rows; for real tiles the three passes are the single product (`Spec.three_pass`).
-/
import proofs.«169094_j25701084299319_2_alg».proof.Proof.Gen.KernelIdeal.Skeleton
import proofs.«169094_j25701084299319_2_alg».proof.Proof.Spec
import proofs.«169094_j25701084299319_2_alg».proof.Proof.LibDot2
import proofs.«169094_j25701084299319_2_alg».proof.Proof.LibDotSumT
import Idealize.ShloMosaic.Lib.ValueLayout
import Idealize.ShloMosaic.Lib.Pipeline.Value

noncomputable section

namespace Cert.KernelIdeal.Body0

open Cert.KernelIdeal Cert.KernelIdeal.Gen Idealize.ShloMosaic Idealize.ShloMosaic.ValueIdx Cert.Lib.AllReal Cert.Spec

/-- A projection of the tile: row r of x0 against column d of w. -/
def tproj (x0 : Vec Ideal S1x512x1024 .f32) (w : Vec Ideal S1024x1024 .bf16) (r : Fin 512) (d : Fin 1024) : EReal :=
  ∑ c : Fin 1024, x0 (ix3 (0 : Fin 1) r c) * w (ix2 c d)

/-- A projection of a real tile by a real weight is real. -/
theorem isReal_tproj {x0 : Vec Ideal S1x512x1024 .f32} {w : Vec Ideal S1024x1024 .bf16} (hx : AllReal x0) (hw : AllReal w)
    (r : Fin 512) (d : Fin 1024) : IsReal (tproj x0 w r d) :=
  isReal_sum _ _ fun c _ => IsReal.mul (hx _) (hw _)

/-- The projection the body computes, at (r, d). -/
theorem pay4_at (x0 : Vec Ideal S1x512x1024 .f32) (w : Vec Ideal S1024x1024 .bf16) (r : Fin 512) (d : Fin 1024) :
    k0_pay4 (F := Ideal) x0 w (ix2 r d) = tproj x0 w r d := by
  unfold k0_pay4 k0_pay3
  refine (Cert.Lib.DotSum.matmul_zero_at dot_S512x1024_S1024x1024_S512x1024_1_0_0_1_n_n rfl rfl rfl rfl rfl rfl none _ _ r d).trans ?_
  unfold tproj
  refine Finset.sum_congr rfl fun c _ => ?_
  refine congrArg₂ (· * ·) ?_ ?_
  · exact shapeCast_1ab_ab_apply x0 _ r c
  · exact congrFun (shapeCast_self w _) (ix2 c d)

/-- The projection of a real tile by a real weight is a real array. -/
theorem allReal_pay4 {x0 : Vec Ideal S1x512x1024 .f32} {w : Vec Ideal S1024x1024 .bf16} (hx : AllReal x0) (hw : AllReal w) :
    AllReal (k0_pay4 (F := Ideal) x0 w) := fun j => by
  obtain ⟨p, q, rfl⟩ : ∃ (p : Fin 512) (q : Fin 1024), j = ix2 p q := ⟨j 0, j 1, eq_ix2 j⟩
  rw [pay4_at]
  exact isReal_tproj hx hw p q

/-- The stored q block is the projection with a unit axis in front. -/
theorem pay1_at (v : FVec Ideal S512x1024 .f32) (u : Fin 1) (r : Fin 512) (d : Fin 1024) :
    k0_pay1 (F := Ideal) v (ix3 u r d) = v (ix2 r d) := by
  unfold k0_pay1
  exact shapeCast_ab_1ab_apply v _ u r d

/-- The block the first point of a batch stores first: zeros. -/
theorem pay2_at (u : Fin 1) (e d : Fin 1024) : k0_pay2 (F := Ideal) (ix3 u e d) = 0 := by
  unfold k0_pay2
  refine (shapeCast_ab_1ab_apply _ _ u e d).trans ?_
  show Ideal.ofBits .f32 0x00000000#32 = 0
  rw [ofBits_f32_zero, EReal.coe_zero]

/-- The three-pass product of two [512, 1024] arrays contracted over their rows, as the body spells it. -/
def threePass (k v : FVec Ideal S512x1024 .f32) : FVec Ideal S1024x1024 .f32 :=
  addf (addf
    (FloatOps.matmul dot_S512x1024_S512x1024_S1024x1024_0_0_1_1_n_n none (truncf .bf16 k bitsLt_bf16_f32) (truncf .bf16 v bitsLt_bf16_f32) (constant S1024x1024 .f32 0x00000000#32))
    (FloatOps.matmul dot_S512x1024_S512x1024_S1024x1024_0_0_1_1_n_n none (truncf .bf16 k bitsLt_bf16_f32) (truncf .bf16 (subf v v) bitsLt_bf16_f32) (constant S1024x1024 .f32 0x00000000#32)))
    (FloatOps.matmul dot_S512x1024_S512x1024_S1024x1024_0_0_1_1_n_n none (truncf .bf16 (subf k k) bitsLt_bf16_f32) (truncf .bf16 v bitsLt_bf16_f32) (constant S1024x1024 .f32 0x00000000#32))

/-- With real entries the three passes are the one product: the sum over the 512 rows. -/
theorem threePass_at (k v : FVec Ideal S512x1024 .f32) (hk : AllReal k) (hv : AllReal v) (e d : Fin 1024) :
    threePass k v (ix2 e d) = ∑ r : Fin 512, k (ix2 r e) * v (ix2 r d) := by
  unfold threePass
  show (FloatOps.matmul _ none _ _ _ (ix2 e d) + FloatOps.matmul _ none _ _ _ (ix2 e d)) + FloatOps.matmul _ none _ _ _ (ix2 e d) = _
  rw [Cert.Lib.DotSumT.matmul_zero_at dot_S512x1024_S512x1024_S1024x1024_0_0_1_1_n_n rfl rfl rfl rfl rfl rfl none _ _ e d,
    Cert.Lib.DotSumT.matmul_zero_at dot_S512x1024_S512x1024_S1024x1024_0_0_1_1_n_n rfl rfl rfl rfl rfl rfl none _ _ e d,
    Cert.Lib.DotSumT.matmul_zero_at dot_S512x1024_S512x1024_S1024x1024_0_0_1_1_n_n rfl rfl rfl rfl rfl rfl none _ _ e d]
  exact three_pass (fun r => k (ix2 r e)) (fun r => v (ix2 r d)) (fun r => hk _) (fun r => hv _)

/-- The running block after the body, as the addition of the three-pass product of the tile's k and v projections. -/
theorem pay5_eq (x0 : Vec Ideal S1x512x1024 .f32) (wk wv : Vec Ideal S1024x1024 .bf16) (acc : Vec Ideal S1x1024x1024 .f32) :
    k0_pay5 (F := Ideal) x0 wk wv acc
      = shapeCast S1x1024x1024 (addf (shapeCast S1024x1024 acc shapeCasts_S1x1024x1024_S1024x1024)
          (threePass (k0_pay4 x0 wk) (k0_pay4 x0 wv))) shapeCasts_S1024x1024_S1x1024x1024 := rfl

/-- The running block after the body at (e, d): what it held plus the tile's contribution, for real blocks. -/
theorem pay5_at (x0 : Vec Ideal S1x512x1024 .f32) (wk wv : Vec Ideal S1024x1024 .bf16) (acc : Vec Ideal S1x1024x1024 .f32)
    (hx : AllReal x0) (hk : AllReal wk) (hv : AllReal wv) (u : Fin 1) (e d : Fin 1024) :
    k0_pay5 (F := Ideal) x0 wk wv acc (ix3 u e d)
      = acc (ix3 (0 : Fin 1) e d) + ∑ r : Fin 512, tproj x0 wk r e * tproj x0 wv r d := by
  rw [pay5_eq]
  refine (shapeCast_ab_1ab_apply _ _ u e d).trans ?_
  show shapeCast S1024x1024 acc _ (ix2 e d) + threePass (k0_pay4 x0 wk) (k0_pay4 x0 wv) (ix2 e d) = _
  rw [shapeCast_1ab_ab_apply acc _ e d,
    threePass_at _ _ (allReal_pay4 hx hk) (allReal_pay4 hx hv) e d]
  refine congrArg _ (Finset.sum_congr rfl fun r _ => ?_)
  rw [pay4_at, pay4_at]

end Cert.KernelIdeal.Body0

end
-- ==== Proof.Region0.lean ====
/-
  Region 0, from blocks to arrays.

  The grid's 32 points are the (batch, tile) pairs in row-major order: point t is batch t / 8, tile t % 8. At point t the
  body sees rows (t % 8) · 512 … + 511 of batch t / 8 of x, and the three weights whole. So the q block it stores is the
  q projection of those rows, and the running block, which is reset at the first tile of a batch and carried from point
  to point within the batch, holds after tile s the sum of the tiles 0 … s of that batch's kᵀv (by induction on the
  point). The q blocks are written back at every point and tile the q array; the running block is written back after the
  last tile of each batch, and those four blocks tile the [4, 1024, 1024] array. Hence the two arrays after the region:
  the projections x · w_q, and kᵀv per batch.
-/
import proofs.«169094_j25701084299319_2_alg».proof.Proof.Pieces0
import proofs.«169094_j25701084299319_2_alg».proof.Proof.Body0

set_option maxRecDepth 16384

noncomputable section

namespace Cert.KernelIdeal.Region0

open Cert.KernelIdeal Cert.KernelIdeal.Gen Idealize.ShloMosaic Idealize.ShloMosaic.TcCoe Idealize.SL.Sem
open Idealize.ShloMosaic.ValueIdx Cert.Lib.AllReal Cert.Lib Cert.Spec Cert.KernelIdeal.Body0
open Idealize.ShloMosaic.Pipeline (Dat)

variable (V : (c : Dev nD) → (b : Ref sig .tc) → Buf (Elt Ideal) ((c : Thread nD τ).loc b))

/-! ## The grid and the index maps -/

/-- The printed index maps, decided over the grid: x and the q output move with (batch, tile); the weights stay; the
    running block moves with the batch only. -/
theorem idx_facts : ∀ t : Fin cfg0.N,
    win0_0.index t (0 : Fin 3) = t.val / 8 ∧ win0_0.index t (1 : Fin 3) = t.val % 8 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = t.val / 8 ∧ win0_4.index t (1 : Fin 3) = t.val % 8 ∧ win0_4.index t (2 : Fin 3) = 0
    ∧ win0_5.index t (0 : Fin 3) = t.val / 8 ∧ win0_5.index t (1 : Fin 3) = 0 ∧ win0_5.index t (2 : Fin 3) = 0 :=
  (by decide +kernel : ∀ t : Fin grid0.N, _)

theorem lt32 (t : Fin cfg0.N) : t.val < 32 := lt_of_lt_of_eq t.isLt (show cfg0.N = 32 from N_0)

/-- The batch of point t. -/
def bOf (t : Fin cfg0.N) : Fin 4 := ⟨t.val / 8, by have := lt32 t; omega⟩
/-- The tile of point t. -/
def sOf (t : Fin cfg0.N) : Fin 8 := ⟨t.val % 8, by omega⟩

/-! ## The input blocks -/

/-- The tile of x at point t, read at (r, cc): row (tile · 512 + r) of the batch. -/
theorem xblk_at (c : Dev nD) (t : Fin cfg0.N) (u : Fin 1) (r : Fin 512) (cc : Fin 1024) :
    (iblk0 V c 0 t : Vec Ideal S1x512x1024 .f32) (ix3 u r cc) = V c main_arg0 (ix3 (bOf t) (trow (sOf t) r) cc) := by
  obtain ⟨e0, e1, e2, -⟩ := idx_facts t
  unfold iblk0
  rw [View.read_apply]
  show V c main_arg0 _ = V c main_arg0 _
  refine congrArg (V c main_arg0) ?_
  funext a
  apply Fin.ext
  have hu := u.isLt
  match a with
  | ⟨0, _⟩ => show win0_0.index t (0 : Fin 3) * 1 + 1 * u.val = t.val / 8; omega
  | ⟨1, _⟩ => show win0_0.index t (1 : Fin 3) * 512 + 1 * r.val = t.val % 8 * 512 + r.val; omega
  | ⟨2, _⟩ => show win0_0.index t (2 : Fin 3) * 1024 + 1 * cc.val = cc.val; omega

/-- A weight's block is the whole weight, at every point. -/
theorem wblk1 (c : Dev nD) (t : Fin cfg0.N) : (iblk0 V c 1 t : Vec Ideal S1024x1024 .bf16) = V c main_v0 := by
  obtain ⟨-, -, -, e0, e1, -⟩ := idx_facts t
  funext y
  unfold iblk0
  rw [View.read_apply]
  show V c main_v0 _ = V c main_v0 y
  refine congrArg (V c main_v0) ?_
  funext a
  apply Fin.ext
  match a with
  | ⟨0, _⟩ => show win0_1.index t (0 : Fin 2) * 1024 + 1 * (y 0).val = (y 0).val; omega
  | ⟨1, _⟩ => show win0_1.index t (1 : Fin 2) * 1024 + 1 * (y 1).val = (y 1).val; omega

theorem wblk2 (c : Dev nD) (t : Fin cfg0.N) : (iblk0 V c 2 t : Vec Ideal S1024x1024 .bf16) = V c main_v1 := by
  obtain ⟨-, -, -, -, -, e0, e1, -⟩ := idx_facts t
  funext y
  unfold iblk0
  rw [View.read_apply]
  show V c main_v1 _ = V c main_v1 y
  refine congrArg (V c main_v1) ?_
  funext a
  apply Fin.ext
  match a with
  | ⟨0, _⟩ => show win0_2.index t (0 : Fin 2) * 1024 + 1 * (y 0).val = (y 0).val; omega
  | ⟨1, _⟩ => show win0_2.index t (1 : Fin 2) * 1024 + 1 * (y 1).val = (y 1).val; omega

theorem wblk3 (c : Dev nD) (t : Fin cfg0.N) : (iblk0 V c 3 t : Vec Ideal S1024x1024 .bf16) = V c main_v2 := by
  obtain ⟨-, -, -, -, -, -, -, e0, e1, -⟩ := idx_facts t
  funext y
  unfold iblk0
  rw [View.read_apply]
  show V c main_v2 _ = V c main_v2 y
  refine congrArg (V c main_v2) ?_
  funext a
  apply Fin.ext
  match a with
  | ⟨0, _⟩ => show win0_3.index t (0 : Fin 2) * 1024 + 1 * (y 0).val = (y 0).val; omega
  | ⟨1, _⟩ => show win0_3.index t (1 : Fin 2) * 1024 + 1 * (y 1).val = (y 1).val; omega

/-- A projection of the tile at point t is the projection of x at the tile's rows. -/
theorem tproj_blk (c : Dev nD) (t : Fin cfg0.N) (wb : Vec Ideal S1024x1024 .bf16) (w : A2) (hw : wb = w) (r : Fin 512) (d : Fin 1024) :
    tproj (iblk0 V c 0 t) wb r d = proj (V c main_arg0) w (bOf t) (trow (sOf t) r) d := by
  subst hw
  unfold tproj proj
  exact Finset.sum_congr rfl fun cc _ => congrArg (· * _) (xblk_at V c t 0 r cc)

/-- The tile of a real x is real. -/
theorem allReal_xblk (c : Dev nD) (t : Fin cfg0.N) (hx : AllReal (V c main_arg0)) :
    AllReal (iblk0 V c 0 t : Vec Ideal S1x512x1024 .f32) := fun y => by
  obtain ⟨u, r, cc, rfl⟩ : ∃ (u : Fin 1) (r : Fin 512) (cc : Fin 1024), y = ix3 u r cc := ⟨y 0, y 1, y 2, eq_ix3 y⟩
  obtain ⟨q, hq⟩ := hx (ix3 (bOf t) (trow (sOf t) r) cc)
  exact ⟨q, (xblk_at V c t u r cc).trans hq⟩

/-! ## What the outputs hold after each point -/

/-- The q block after point t: the q projection of the tile. -/
theorem q_after (c : Dev nD) (t : Fin cfg0.N) :
    (outsAt0 V c t.val t.isLt).1 = k0_pay1 (F := Ideal) (k0_pay4 (F := Ideal) (iblk0 V c 0 t) (iblk0 V c 1 t)) := by
  by_cases h0 : t.val % 8 = 0
  · rw [outsAt0_A V c t h0]
    dsimp only
    exact Pieces0.out_A_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk0 V c 0 t) (iblk0 V c 1 t) (iblk0 V c 2 t) (iblk0 V c 3 t)
  · rw [outsAt0_B V c t h0]
    dsimp only
    exact Pieces0.out_B_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk0 V c 0 t) (iblk0 V c 1 t) (iblk0 V c 2 t) (iblk0 V c 3 t) (outsAt0 V c (t.val - 1) (Nat.lt_of_le_of_lt (Nat.sub_le _ _) t.isLt)).2

/-- The running block after a first tile: zeros plus the tile's product. -/
theorem kv_after_A (c : Dev nD) (t : Fin cfg0.N) (h0 : t.val % 8 = 0) :
    (outsAt0 V c t.val t.isLt).2 = k0_pay5 (F := Ideal) (iblk0 V c 0 t) (iblk0 V c 2 t) (iblk0 V c 3 t) (k0_pay2 (F := Ideal)) := by
  rw [outsAt0_A V c t h0]
  dsimp only
  exact Pieces0.out_A_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk0 V c 0 t) (iblk0 V c 1 t) (iblk0 V c 2 t) (iblk0 V c 3 t)

/-- The running block after a later tile: what the point before left plus the tile's product. -/
theorem kv_after_B (c : Dev nD) (t : Fin cfg0.N) (h0 : ¬t.val % 8 = 0) :
    (outsAt0 V c t.val t.isLt).2 = k0_pay5 (F := Ideal) (iblk0 V c 0 t) (iblk0 V c 2 t) (iblk0 V c 3 t) (outsAt0 V c (t.val - 1) (Nat.lt_of_le_of_lt (Nat.sub_le _ _) t.isLt)).2 := by
  rw [outsAt0_B V c t h0]
  dsimp only
  exact Pieces0.out_B_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk0 V c 0 t) (iblk0 V c 1 t) (iblk0 V c 2 t) (iblk0 V c 3 t) (outsAt0 V c (t.val - 1) (Nat.lt_of_le_of_lt (Nat.sub_le _ _) t.isLt)).2

/-- The tile's product as the body computes it is the specification's tile term of kᵀv. -/
theorem tile_blk (c : Dev nD) (t : Fin cfg0.N) (e d : Fin 1024) :
    ∑ r : Fin 512, tproj (iblk0 V c 0 t) (iblk0 V c 2 t) r e * tproj (iblk0 V c 0 t) (iblk0 V c 3 t) r d
      = tile (V c main_arg0) (V c main_v1) (V c main_v2) (bOf t) e d (sOf t) := by
  unfold tile
  exact Finset.sum_congr rfl fun r _ => congrArg₂ (· * ·) (tproj_blk V c t _ _ (wblk2 V c t) r e) (tproj_blk V c t _ _ (wblk3 V c t) r d)

section Real
variable (c : Dev nD) (hx : AllReal (V c main_arg0)) (hk : AllReal (V c main_v1)) (hv : AllReal (V c main_v2))
include hx hk hv

/-- The running block at (e, d) after a first tile: that tile's term. -/
theorem kv_point_A (t : Fin cfg0.N) (h0 : t.val % 8 = 0) (u : Fin 1) (e d : Fin 1024) :
    (outsAt0 V c t.val t.isLt).2 (ix3 u e d) = tile (V c main_arg0) (V c main_v1) (V c main_v2) (bOf t) e d (sOf t) := by
  refine (congrFun (kv_after_A V c t h0) (ix3 u e d)).trans ?_
  refine (pay5_at (iblk0 V c 0 t) (iblk0 V c 2 t) (iblk0 V c 3 t) (k0_pay2 (F := Ideal)) (allReal_xblk V c t hx)
    (AllReal.congr hk fun i => congrFun (wblk2 V c t) i) (AllReal.congr hv fun i => congrFun (wblk3 V c t) i) u e d).trans ?_
  rw [pay2_at, zero_add]
  exact tile_blk V c t e d

/-- The running block at (e, d) after a later tile: what the point before left there plus that tile's term. -/
theorem kv_point_B (t : Fin cfg0.N) (h0 : ¬t.val % 8 = 0) (u : Fin 1) (e d : Fin 1024) :
    (outsAt0 V c t.val t.isLt).2 (ix3 u e d)
      = (outsAt0 V c (t.val - 1) (Nat.lt_of_le_of_lt (Nat.sub_le _ _) t.isLt)).2 (ix3 (0 : Fin 1) e d) + tile (V c main_arg0) (V c main_v1) (V c main_v2) (bOf t) e d (sOf t) := by
  refine (congrFun (kv_after_B V c t h0) (ix3 u e d)).trans ?_
  refine (pay5_at (iblk0 V c 0 t) (iblk0 V c 2 t) (iblk0 V c 3 t) (outsAt0 V c (t.val - 1) (Nat.lt_of_le_of_lt (Nat.sub_le _ _) t.isLt)).2 (allReal_xblk V c t hx)
    (AllReal.congr hk fun i => congrFun (wblk2 V c t) i) (AllReal.congr hv fun i => congrFun (wblk3 V c t) i) u e d).trans ?_
  exact congrArg _ (tile_blk V c t e d)

/-- THE ACCUMULATION: after point n the running block holds the sum of the batch's tiles 0 … n % 8. -/
theorem kv_inv : ∀ (n : ℕ) (h : n < cfg0.N) (u : Fin 1) (e d : Fin 1024),
    (outsAt0 V c n h).2 (ix3 u e d) = psum (tile (V c main_arg0) (V c main_v1) (V c main_v2) (bOf ⟨n, h⟩) e d) (n % 8)
  | 0, h, u, e, d => by
    refine (kv_point_A V c hx hk hv ⟨0, h⟩ rfl u e d).trans ?_
    exact (psum_zero _ (by norm_num)).symm
  | n + 1, h, u, e, d => by
    have hN : n + 1 < 32 := lt_of_lt_of_eq h (show cfg0.N = 32 from N_0)
    by_cases h0 : (n + 1) % 8 = 0
    · refine (kv_point_A V c hx hk hv ⟨n + 1, h⟩ h0 u e d).trans ?_
      rw [h0, psum_zero _ (by norm_num)]
      exact congrArg _ (Fin.ext h0)
    · refine (kv_point_B V c hx hk hv ⟨n + 1, h⟩ h0 u e d).trans ?_
      have ih := kv_inv n (Nat.lt_of_succ_lt h) 0 e d
      have hb : bOf ⟨n + 1, h⟩ = bOf ⟨n, Nat.lt_of_succ_lt h⟩ := Fin.ext (by show (n + 1) / 8 = n / 8; omega)
      have hs : sOf ⟨n + 1, h⟩ = ⟨n % 8 + 1, by omega⟩ := Fin.ext (by show (n + 1) % 8 = n % 8 + 1; omega)
      rw [show (n + 1) % 8 = n % 8 + 1 by omega, psum_succ _ _ (by omega), hb, hs]
      exact congrArg (· + _) ih

end Real

/-! ## The blocks written back, and the arrays after the region -/

/-- An index of the q array is in point t's block iff each coordinate is in the block's range on its axis. -/
theorem mem_blk4 (t : Fin cfg0.N) (i : S4x4096x1024.Idx) :
    i ∈ ((cfg0.win 4).blk t).view.set ↔ ∀ a : Fin 3, win0_4.index t a * S1x512x1024.size a ≤ (i a).val ∧ (i a).val < win0_4.index t a * S1x512x1024.size a + S1x512x1024.size a := by
  show i ∈ ((View.whole main_v3_0).slice (win0_4.rect t)).set ↔ _
  rw [View.set_slice_whole, Rect.mem_set_unit]
  exact Iff.rfl

/-- WHAT POINT t WRITES BACK to the q array is block t of the projections x · w_q. -/
theorem flushed4_eq (c : Dev nD) (t : Fin cfg0.N) :
    (dat0 V c).flushed 4 t = ((cfg0.win 4).blk t).view.read (Elt Ideal) (projArr (V c main_arg0) (V c main_v0)) := by
  obtain ⟨-, -, -, -, -, -, -, -, -, e0, e1, e2, -⟩ := idx_facts t
  show (cfg0.win 4).cut (grid0.coords t) ((dat0 V c).after 4 t) = _
  rw [after0_4, q_after]
  refine funext fun (y : S1x512x1024.Idx) => ?_
  obtain ⟨u, r, d, rfl⟩ : ∃ (u : Fin 1) (r : Fin 512) (d : Fin 1024), y = ix3 u r d := ⟨y 0, y 1, y 2, eq_ix3 y⟩
  rw [View.read_apply]
  show k0_pay1 (F := Ideal) (k0_pay4 (F := Ideal) (iblk0 V c 0 t) (iblk0 V c 1 t)) (ix3 u r d)
    = projArr (V c main_arg0) (V c main_v0) (((cfg0.win 4).blk t).view.emb (ix3 u r d))
  refine (pay1_at (k0_pay4 (F := Ideal) (iblk0 V c 0 t) (iblk0 V c 1 t)) u r d).trans ?_
  refine (pay4_at (iblk0 V c 0 t) (iblk0 V c 1 t) r d).trans ?_
  refine (tproj_blk V c t _ _ (wblk1 V c t) r d).trans ?_
  have hemb : ((cfg0.win 4).blk t).view.emb (ix3 u r d) = ix3 (bOf t) (trow (sOf t) r) d := by
    funext a
    apply Fin.ext
    have hu := u.isLt
    match a with
    | ⟨0, _⟩ => show win0_4.index t (0 : Fin 3) * 1 + 1 * u.val = t.val / 8; omega
    | ⟨1, _⟩ => show win0_4.index t (1 : Fin 3) * 512 + 1 * r.val = t.val % 8 * 512 + r.val; omega
    | ⟨2, _⟩ => show win0_4.index t (2 : Fin 3) * 1024 + 1 * d.val = d.val; omega
  rw [hemb]
  rfl

/-- Every index of the q array is in the block of the point of its batch and tile. -/
theorem cover4 (i : S4x4096x1024.Idx) :
    ∃ t : Fin cfg0.N, (cfg0.win 4).flush t = true ∧ i ∈ ((cfg0.win 4).blk t).view.set := by
  have h0 : (i 0).val < 4 := (i 0).isLt
  have h1 : (i 1).val < 4096 := (i 1).isLt
  have h2 : (i 2).val < 1024 := (i 2).isLt
  have hlt : 8 * (i 0).val + (i 1).val / 512 < cfg0.N := by rw [show cfg0.N = 32 from N_0]; omega
  obtain ⟨-, -, -, -, -, -, -, -, -, e0, e1, e2, -⟩ := idx_facts ⟨8 * (i 0).val + (i 1).val / 512, hlt⟩
  refine ⟨⟨8 * (i 0).val + (i 1).val / 512, hlt⟩, flush0_4 _, ?_⟩
  rw [mem_blk4]
  dsimp only at e0 e1 e2
  intro a
  match a with
  | ⟨0, _⟩ => show win0_4.index ⟨8 * (i 0).val + (i 1).val / 512, hlt⟩ (0 : Fin 3) * 1 ≤ (i 0).val ∧ (i 0).val < win0_4.index ⟨8 * (i 0).val + (i 1).val / 512, hlt⟩ (0 : Fin 3) * 1 + 1; omega
  | ⟨1, _⟩ => show win0_4.index ⟨8 * (i 0).val + (i 1).val / 512, hlt⟩ (1 : Fin 3) * 512 ≤ (i 1).val ∧ (i 1).val < win0_4.index ⟨8 * (i 0).val + (i 1).val / 512, hlt⟩ (1 : Fin 3) * 512 + 512; omega
  | ⟨2, _⟩ => show win0_4.index ⟨8 * (i 0).val + (i 1).val / 512, hlt⟩ (2 : Fin 3) * 1024 ≤ (i 2).val ∧ (i 2).val < win0_4.index ⟨8 * (i 0).val + (i 1).val / 512, hlt⟩ (2 : Fin 3) * 1024 + 1024; omega

/-- THE q ARRAY after the region: the projections x · w_q. -/
theorem final4 (c : Dev nD) : (dat0 V c).arrAt 4 cfg0.N = projArr (V c main_arg0) (V c main_v0) :=
  (dat0 V c).arrAt_eq_of_cover 4 _ (fun t _ => flushed4_eq V c t) cover4

/-- An index of the kᵀv array is in point t's block iff each coordinate is in the block's range on its axis. -/
theorem mem_blk5 (t : Fin cfg0.N) (i : S4x1024x1024.Idx) :
    i ∈ ((cfg0.win 5).blk t).view.set ↔ ∀ a : Fin 3, win0_5.index t a * S1x1024x1024.size a ≤ (i a).val ∧ (i a).val < win0_5.index t a * S1x1024x1024.size a + S1x1024x1024.size a := by
  show i ∈ ((View.whole main_v3_1).slice (win0_5.rect t)).set ↔ _
  rw [View.set_slice_whole, Rect.mem_set_unit]
  exact Iff.rfl

/-- WHAT THE LAST TILE OF A BATCH WRITES BACK is that batch's block of kᵀv: the sum of all eight tiles. -/
theorem flushed5_eq (c : Dev nD) (hx : AllReal (V c main_arg0)) (hk : AllReal (V c main_v1)) (hv : AllReal (V c main_v2))
    (t : Fin cfg0.N) (hf : (cfg0.win 5).flush t = true) :
    (dat0 V c).flushed 5 t = ((cfg0.win 5).blk t).view.read (Elt Ideal) (kvArr (V c main_arg0) (V c main_v1) (V c main_v2)) := by
  have h7 : t.val % 8 = 7 := (flush0_5 t).mp hf
  obtain ⟨-, -, -, -, -, -, -, -, -, -, -, -, e0, e1, e2⟩ := idx_facts t
  show (cfg0.win 5).cut (grid0.coords t) ((dat0 V c).after 5 t) = _
  rw [after0_5]
  refine funext fun (y : S1x1024x1024.Idx) => ?_
  obtain ⟨u, e, d, rfl⟩ : ∃ (u : Fin 1) (e d : Fin 1024), y = ix3 u e d := ⟨y 0, y 1, y 2, eq_ix3 y⟩
  rw [View.read_apply]
  show (outsAt0 V c t.val t.isLt).2 (ix3 u e d)
    = kvArr (V c main_arg0) (V c main_v1) (V c main_v2) (((cfg0.win 5).blk t).view.emb (ix3 u e d))
  refine (kv_inv V c hx hk hv t.val t.isLt u e d).trans ?_
  rw [h7, psum_last _ 7 (by norm_num)]
  have hemb : ((cfg0.win 5).blk t).view.emb (ix3 u e d) = ix3 (bOf t) e d := by
    funext a
    apply Fin.ext
    have hu := u.isLt
    match a with
    | ⟨0, _⟩ => show win0_5.index t (0 : Fin 3) * 1 + 1 * u.val = t.val / 8; omega
    | ⟨1, _⟩ => show win0_5.index t (1 : Fin 3) * 1024 + 1 * e.val = e.val; omega
    | ⟨2, _⟩ => show win0_5.index t (2 : Fin 3) * 1024 + 1 * d.val = d.val; omega
  rw [hemb]
  rfl

/-- Every index of the kᵀv array is in the block the last tile of its batch writes back. -/
theorem cover5 (i : S4x1024x1024.Idx) :
    ∃ t : Fin cfg0.N, (cfg0.win 5).flush t = true ∧ i ∈ ((cfg0.win 5).blk t).view.set := by
  have h0 : (i 0).val < 4 := (i 0).isLt
  have h1 : (i 1).val < 1024 := (i 1).isLt
  have h2 : (i 2).val < 1024 := (i 2).isLt
  have hlt : 8 * (i 0).val + 7 < cfg0.N := by rw [show cfg0.N = 32 from N_0]; omega
  obtain ⟨-, -, -, -, -, -, -, -, -, -, -, -, e0, e1, e2⟩ := idx_facts ⟨8 * (i 0).val + 7, hlt⟩
  refine ⟨⟨8 * (i 0).val + 7, hlt⟩, (flush0_5 _).mpr (by show (8 * (i 0).val + 7) % 8 = 7; omega), ?_⟩
  rw [mem_blk5]
  dsimp only at e0 e1 e2
  intro a
  match a with
  | ⟨0, _⟩ => show win0_5.index ⟨8 * (i 0).val + 7, hlt⟩ (0 : Fin 3) * 1 ≤ (i 0).val ∧ (i 0).val < win0_5.index ⟨8 * (i 0).val + 7, hlt⟩ (0 : Fin 3) * 1 + 1; omega
  | ⟨1, _⟩ => show win0_5.index ⟨8 * (i 0).val + 7, hlt⟩ (1 : Fin 3) * 1024 ≤ (i 1).val ∧ (i 1).val < win0_5.index ⟨8 * (i 0).val + 7, hlt⟩ (1 : Fin 3) * 1024 + 1024; omega
  | ⟨2, _⟩ => show win0_5.index ⟨8 * (i 0).val + 7, hlt⟩ (2 : Fin 3) * 1024 ≤ (i 2).val ∧ (i 2).val < win0_5.index ⟨8 * (i 0).val + 7, hlt⟩ (2 : Fin 3) * 1024 + 1024; omega

/-- THE kᵀv ARRAY after the region, for real x, w_k, w_v. -/
theorem final5 (c : Dev nD) (hx : AllReal (V c main_arg0)) (hk : AllReal (V c main_v1)) (hv : AllReal (V c main_v2)) :
    (dat0 V c).arrAt 5 cfg0.N = kvArr (V c main_arg0) (V c main_v1) (V c main_v2) :=
  (dat0 V c).arrAt_eq_of_cover 5 _ (fun t hf => flushed5_eq V c hx hk hv t hf) cover5

end Cert.KernelIdeal.Region0

end
-- ==== Proof.Body1.lean ====
/-
  Region 1's arithmetic, at one grid point, as a function of the two blocks the body loads.

  The body loads a block q0 : [1, 1024, 1024] of the q array and a batch's block a0 : [1, 1024, 1024] of the kᵀv array,
  forms the three-pass product q0 · a0 + q0 · (a0 − a0) + (q0 − q0) · a0 of the two [1024, 1024] matrices and multiplies
  it by 32. For real blocks the three passes are the one product, so the stored entry (i, d) is
  (Σ_e q0(i, e) · a0(e, d)) · 32.
-/
import proofs.«169094_j25701084299319_2_alg».proof.Proof.Gen.KernelIdeal.Skeleton
import proofs.«169094_j25701084299319_2_alg».proof.Proof.Spec
import proofs.«169094_j25701084299319_2_alg».proof.Proof.LibDot2
import Idealize.ShloMosaic.Lib.ValueLayout
import Idealize.ShloMosaic.Lib.Pipeline.Value

noncomputable section

namespace Cert.KernelIdeal.Body1

open Cert.KernelIdeal Cert.KernelIdeal.Gen Idealize.ShloMosaic Idealize.ShloMosaic.ValueIdx Cert.Lib.AllReal Cert.Spec

/-- The three-pass product of two [1024, 1024] matrices, as the body spells it. -/
def threePass (a b : FVec Ideal S1024x1024 .f32) : FVec Ideal S1024x1024 .f32 :=
  addf (addf
    (FloatOps.matmul dot_S1024x1024_S1024x1024_S1024x1024_1_0_0_1_n_n none (truncf .bf16 a bitsLt_bf16_f32) (truncf .bf16 b bitsLt_bf16_f32) (constant S1024x1024 .f32 0x00000000#32))
    (FloatOps.matmul dot_S1024x1024_S1024x1024_S1024x1024_1_0_0_1_n_n none (truncf .bf16 a bitsLt_bf16_f32) (truncf .bf16 (subf b b) bitsLt_bf16_f32) (constant S1024x1024 .f32 0x00000000#32)))
    (FloatOps.matmul dot_S1024x1024_S1024x1024_S1024x1024_1_0_0_1_n_n none (truncf .bf16 (subf a a) bitsLt_bf16_f32) (truncf .bf16 b bitsLt_bf16_f32) (constant S1024x1024 .f32 0x00000000#32))

/-- With real entries the three passes are the one product: the sum over the contracted 1024. -/
theorem threePass_at (a b : FVec Ideal S1024x1024 .f32) (ha : AllReal a) (hb : AllReal b) (i d : Fin 1024) :
    threePass a b (ix2 i d) = ∑ e : Fin 1024, a (ix2 i e) * b (ix2 e d) := by
  unfold threePass
  show (FloatOps.matmul _ none _ _ _ (ix2 i d) + FloatOps.matmul _ none _ _ _ (ix2 i d)) + FloatOps.matmul _ none _ _ _ (ix2 i d) = _
  rw [Cert.Lib.DotSum.matmul_zero_at dot_S1024x1024_S1024x1024_S1024x1024_1_0_0_1_n_n rfl rfl rfl rfl rfl rfl none _ _ i d,
    Cert.Lib.DotSum.matmul_zero_at dot_S1024x1024_S1024x1024_S1024x1024_1_0_0_1_n_n rfl rfl rfl rfl rfl rfl none _ _ i d,
    Cert.Lib.DotSum.matmul_zero_at dot_S1024x1024_S1024x1024_S1024x1024_1_0_0_1_n_n rfl rfl rfl rfl rfl rfl none _ _ i d]
  exact three_pass (fun e => a (ix2 i e)) (fun e => b (ix2 e d)) (fun e => ha _) (fun e => hb _)

/-- The stored block, as the scaled three-pass product of the two loaded blocks without their unit axis. -/
theorem pay1_eq (q0 a0 : Vec Ideal S1x1024x1024 .f32) :
    k1_pay1 (F := Ideal) q0 a0
      = shapeCast S1x1024x1024 (mulf (threePass (shapeCast S1024x1024 q0 shapeCasts_S1x1024x1024_S1024x1024)
            (shapeCast S1024x1024 a0 shapeCasts_S1x1024x1024_S1024x1024))
          (broadcast S1024x1024 (Scalar.ofBits .f32 0x42000000#32))) shapeCasts_S1024x1024_S1x1024x1024 := rfl

/-- A block without its unit axis is as real as the block. -/
theorem allReal_drop {q0 : Vec Ideal S1x1024x1024 .f32} (h : AllReal q0) :
    AllReal (shapeCast S1024x1024 q0 shapeCasts_S1x1024x1024_S1024x1024) := fun j => by
  obtain ⟨i, e, rfl⟩ : ∃ (i e : Fin 1024), j = ix2 i e := ⟨j 0, j 1, eq_ix2 j⟩
  rw [shapeCast_1ab_ab_apply q0 _ i e]
  exact h _

/-- The stored block at (i, d), for real blocks. -/
theorem pay1_at (q0 a0 : Vec Ideal S1x1024x1024 .f32) (hq : AllReal q0) (ha : AllReal a0) (u : Fin 1) (i d : Fin 1024) :
    k1_pay1 (F := Ideal) q0 a0 (ix3 u i d)
      = (∑ e : Fin 1024, q0 (ix3 (0 : Fin 1) i e) * a0 (ix3 (0 : Fin 1) e d)) * scale := by
  rw [pay1_eq]
  refine (shapeCast_ab_1ab_apply _ _ u i d).trans ?_
  show threePass _ _ (ix2 i d) * scale = _
  rw [threePass_at _ _ (allReal_drop hq) (allReal_drop ha) i d]
  refine congrArg (· * scale) (Finset.sum_congr rfl fun e _ => ?_)
  rw [shapeCast_1ab_ab_apply q0 _ i e, shapeCast_1ab_ab_apply a0 _ e d]

end Cert.KernelIdeal.Body1

end
-- ==== Proof.Region1.lean ====
/-
  Region 1, from blocks to the result array.

  The grid's 16 points are (batch, row block) pairs in row-major order: point t is batch t / 4 and rows
  (t % 4) · 1024 … + 1023. The body sees those rows of the q array and the batch's whole block of the kᵀv array and stores
  their scaled product, written back at every point; the 16 blocks tile the result. So, for real q and kᵀv arrays, the
  result array at (b, i, d) is (Σ_e q(b, i, e) · kᵀv(b, e, d)) · 32.
-/
import proofs.«169094_j25701084299319_2_alg».proof.Proof.Gen.KernelIdeal.Frame
import proofs.«169094_j25701084299319_2_alg».proof.Proof.Body1

set_option maxRecDepth 16384

noncomputable section

namespace Cert.KernelIdeal.Region1

open Cert.KernelIdeal Cert.KernelIdeal.Gen Idealize.ShloMosaic Idealize.ShloMosaic.TcCoe Idealize.SL.Sem
open Idealize.ShloMosaic.ValueIdx Cert.Lib.AllReal Cert.Lib Cert.Spec Cert.KernelIdeal.Body1
open Idealize.ShloMosaic.Pipeline (Dat)

variable (V : (c : Dev nD) → (b : Ref sig .tc) → Buf (Elt Ideal) ((c : Thread nD τ).loc b))

/-- The zero offsets of a rank-3 block. -/
theorem hz3 : (![0, 0, 0] : Fin 3 → Nat) = fun _ => 0 := funext fun a => by fin_cases a <;> rfl

/-! ## The specification of the region -/

/-- The scaled product at (b, i, d) of a q array and a kᵀv array. -/
def outEntry (qa : A3) (ka : K3) (b : Fin 4) (i : Fin 4096) (d : Fin 1024) : EReal :=
  (∑ e : Fin 1024, qa (ix3 b i e) * ka (ix3 b e d)) * scale

/-- The same as an array. -/
def outArr (qa : A3) (ka : K3) : A3 := fun j => outEntry qa ka (j 0) (j 1) (j 2)

/-- On the arrays region 0 leaves it is the specification's `Y`. -/
theorem outArr_spec (x : A3) (wq wk wv : A2) : outArr (projArr x wq) (kvArr x wk wv) = Y x wq wk wv := rfl

/-! ## The grid and the index maps -/

/-- The printed index maps, decided over the grid. -/
theorem idx_facts : ∀ t : Fin cfg1.N,
    win1_0.index t (0 : Fin 3) = t.val / 4 ∧ win1_0.index t (1 : Fin 3) = t.val % 4 ∧ win1_0.index t (2 : Fin 3) = 0
    ∧ win1_1.index t (0 : Fin 3) = t.val / 4 ∧ win1_1.index t (1 : Fin 3) = 0 ∧ win1_1.index t (2 : Fin 3) = 0
    ∧ win1_2.index t (0 : Fin 3) = t.val / 4 ∧ win1_2.index t (1 : Fin 3) = t.val % 4 ∧ win1_2.index t (2 : Fin 3) = 0 :=
  (by decide +kernel : ∀ t : Fin grid1.N, _)

theorem lt16 (t : Fin cfg1.N) : t.val < 16 := lt_of_lt_of_eq t.isLt (show cfg1.N = 16 from N_1)

/-- The batch of point t. -/
def bOf (t : Fin cfg1.N) : Fin 4 := ⟨t.val / 4, by have := lt16 t; omega⟩
/-- Row i of point t's row block is row (t % 4) · 1024 + i of the 4096. -/
def rowOf (t : Fin cfg1.N) (i : Fin 1024) : Fin 4096 := ⟨t.val % 4 * 1024 + i.val, by have := i.isLt; omega⟩

/-! ## The input blocks -/

/-- The q block at point t, read at (i, e). -/
theorem qblk_at (c : Dev nD) (t : Fin cfg1.N) (u : Fin 1) (i e : Fin 1024) :
    (iblk1 V c 0 t : Vec Ideal S1x1024x1024 .f32) (ix3 u i e) = V c main_v3_0 (ix3 (bOf t) (rowOf t i) e) := by
  obtain ⟨e0, e1, e2, -⟩ := idx_facts t
  unfold iblk1
  rw [View.read_apply]
  show V c main_v3_0 _ = V c main_v3_0 _
  refine congrArg (V c main_v3_0) ?_
  funext a
  apply Fin.ext
  have hu := u.isLt
  match a with
  | ⟨0, _⟩ => show win1_0.index t (0 : Fin 3) * 1 + 1 * u.val = t.val / 4; omega
  | ⟨1, _⟩ => show win1_0.index t (1 : Fin 3) * 1024 + 1 * i.val = t.val % 4 * 1024 + i.val; omega
  | ⟨2, _⟩ => show win1_0.index t (2 : Fin 3) * 1024 + 1 * e.val = e.val; omega

/-- The kᵀv block at point t, read at (e, d): the batch's block. -/
theorem ablk_at (c : Dev nD) (t : Fin cfg1.N) (u : Fin 1) (e d : Fin 1024) :
    (iblk1 V c 1 t : Vec Ideal S1x1024x1024 .f32) (ix3 u e d) = V c main_v3_1 (ix3 (bOf t) e d) := by
  obtain ⟨-, -, -, e0, e1, e2, -⟩ := idx_facts t
  unfold iblk1
  rw [View.read_apply]
  show V c main_v3_1 _ = V c main_v3_1 _
  refine congrArg (V c main_v3_1) ?_
  funext a
  apply Fin.ext
  have hu := u.isLt
  match a with
  | ⟨0, _⟩ => show win1_1.index t (0 : Fin 3) * 1 + 1 * u.val = t.val / 4; omega
  | ⟨1, _⟩ => show win1_1.index t (1 : Fin 3) * 1024 + 1 * e.val = e.val; omega
  | ⟨2, _⟩ => show win1_1.index t (2 : Fin 3) * 1024 + 1 * d.val = d.val; omega

/-- A block of a real q array is real. -/
theorem allReal_qblk (c : Dev nD) (t : Fin cfg1.N) (hq : AllReal (V c main_v3_0)) :
    AllReal (iblk1 V c 0 t : Vec Ideal S1x1024x1024 .f32) := fun y => by
  obtain ⟨u, i, e, rfl⟩ : ∃ (u : Fin 1) (i e : Fin 1024), y = ix3 u i e := ⟨y 0, y 1, y 2, eq_ix3 y⟩
  obtain ⟨q, hq'⟩ := hq (ix3 (bOf t) (rowOf t i) e)
  exact ⟨q, (qblk_at V c t u i e).trans hq'⟩

/-- A block of a real kᵀv array is real. -/
theorem allReal_ablk (c : Dev nD) (t : Fin cfg1.N) (ha : AllReal (V c main_v3_1)) :
    AllReal (iblk1 V c 1 t : Vec Ideal S1x1024x1024 .f32) := fun y => by
  obtain ⟨u, e, d, rfl⟩ : ∃ (u : Fin 1) (e d : Fin 1024), y = ix3 u e d := ⟨y 0, y 1, y 2, eq_ix3 y⟩
  obtain ⟨q, hq'⟩ := ha (ix3 (bOf t) e d)
  exact ⟨q, (ablk_at V c t u e d).trans hq'⟩

/-! ## The blocks written back, and the result array -/

/-- An index of the result array is in point t's block iff each coordinate is in the block's range on its axis. -/
theorem mem_blk2 (t : Fin cfg1.N) (i : S4x4096x1024.Idx) :
    i ∈ ((cfg1.win 2).blk t).view.set ↔ ∀ a : Fin 3, win1_2.index t a * S1x1024x1024.size a ≤ (i a).val ∧ (i a).val < win1_2.index t a * S1x1024x1024.size a + S1x1024x1024.size a := by
  show i ∈ ((View.whole main_v4).slice (win1_2.rect t)).set ↔ _
  rw [View.set_slice_whole, Rect.mem_set_unit]
  exact Iff.rfl

/-- WHAT POINT t WRITES BACK is block t of the scaled product of the two arrays, when they are real. -/
theorem flushed2_eq (c : Dev nD) (hq : AllReal (V c main_v3_0)) (ha : AllReal (V c main_v3_1)) (t : Fin cfg1.N) :
    (dat1 V c).flushed 2 t = ((cfg1.win 2).blk t).view.read (Elt Ideal) (outArr (V c main_v3_0) (V c main_v3_1)) := by
  obtain ⟨-, -, -, -, -, -, e0, e1, e2⟩ := idx_facts t
  show (cfg1.win 2).cut (grid1.coords t) ((dat1 V c).after 2 t) = _
  rw [after1_2]
  unfold out1_2
  rw [View.canon_unit_zero hz3]
  simp only [View.ld_unit_zero (S := S1x1024x1024) hz3]
  refine funext fun (y : S1x1024x1024.Idx) => ?_
  obtain ⟨u, i, d, rfl⟩ : ∃ (u : Fin 1) (i d : Fin 1024), y = ix3 u i d := ⟨y 0, y 1, y 2, eq_ix3 y⟩
  rw [View.read_apply]
  show k1_pay1 (F := Ideal) (iblk1 V c 0 t) (iblk1 V c 1 t) (ix3 u i d)
    = outArr (V c main_v3_0) (V c main_v3_1) (((cfg1.win 2).blk t).view.emb (ix3 u i d))
  refine (pay1_at (iblk1 V c 0 t) (iblk1 V c 1 t) (allReal_qblk V c t hq) (allReal_ablk V c t ha) u i d).trans ?_
  have hemb : ((cfg1.win 2).blk t).view.emb (ix3 u i d) = ix3 (bOf t) (rowOf t i) d := by
    funext a
    apply Fin.ext
    have hu := u.isLt
    match a with
    | ⟨0, _⟩ => show win1_2.index t (0 : Fin 3) * 1 + 1 * u.val = t.val / 4; omega
    | ⟨1, _⟩ => show win1_2.index t (1 : Fin 3) * 1024 + 1 * i.val = t.val % 4 * 1024 + i.val; omega
    | ⟨2, _⟩ => show win1_2.index t (2 : Fin 3) * 1024 + 1 * d.val = d.val; omega
  rw [hemb]
  show _ = outEntry (V c main_v3_0) (V c main_v3_1) (bOf t) (rowOf t i) d
  unfold outEntry
  exact congrArg (· * scale) (Finset.sum_congr rfl fun e _ => congrArg₂ (· * ·) (qblk_at V c t 0 i e) (ablk_at V c t 0 e d))

/-- Every index of the result array is in the block of the point of its batch and row block. -/
theorem cover2 (i : S4x4096x1024.Idx) :
    ∃ t : Fin cfg1.N, (cfg1.win 2).flush t = true ∧ i ∈ ((cfg1.win 2).blk t).view.set := by
  have h0 : (i 0).val < 4 := (i 0).isLt
  have h1 : (i 1).val < 4096 := (i 1).isLt
  have h2 : (i 2).val < 1024 := (i 2).isLt
  have hlt : 4 * (i 0).val + (i 1).val / 1024 < cfg1.N := by rw [show cfg1.N = 16 from N_1]; omega
  obtain ⟨-, -, -, -, -, -, e0, e1, e2⟩ := idx_facts ⟨4 * (i 0).val + (i 1).val / 1024, hlt⟩
  refine ⟨⟨4 * (i 0).val + (i 1).val / 1024, hlt⟩, flush1_2 _, ?_⟩
  rw [mem_blk2]
  dsimp only at e0 e1 e2
  intro a
  match a with
  | ⟨0, _⟩ => show win1_2.index ⟨4 * (i 0).val + (i 1).val / 1024, hlt⟩ (0 : Fin 3) * 1 ≤ (i 0).val ∧ (i 0).val < win1_2.index ⟨4 * (i 0).val + (i 1).val / 1024, hlt⟩ (0 : Fin 3) * 1 + 1; omega
  | ⟨1, _⟩ => show win1_2.index ⟨4 * (i 0).val + (i 1).val / 1024, hlt⟩ (1 : Fin 3) * 1024 ≤ (i 1).val ∧ (i 1).val < win1_2.index ⟨4 * (i 0).val + (i 1).val / 1024, hlt⟩ (1 : Fin 3) * 1024 + 1024; omega
  | ⟨2, _⟩ => show win1_2.index ⟨4 * (i 0).val + (i 1).val / 1024, hlt⟩ (2 : Fin 3) * 1024 ≤ (i 2).val ∧ (i 2).val < win1_2.index ⟨4 * (i 0).val + (i 1).val / 1024, hlt⟩ (2 : Fin 3) * 1024 + 1024; omega

/-- THE RESULT ARRAY after the region, for real q and kᵀv arrays. -/
theorem final2 (c : Dev nD) (hq : AllReal (V c main_v3_0)) (ha : AllReal (V c main_v3_1)) :
    (dat1 V c).arrAt 2 cfg1.N = outArr (V c main_v3_0) (V c main_v3_1) :=
  (dat1 V c).arrAt_eq_of_cover 2 _ (fun t _ => flushed2_eq V c hq ha t) cover2

end Cert.KernelIdeal.Region1

end
-- ==== Proof.KernelValue.lean ====
/-
  The idealized kernel's result array, as a function of the argument arrays.

  Walk the program. The three host conversions narrow the weights, which at the ideal instance changes nothing: region 0
  is entered with x and the three weights as launched. For real arguments region 0 leaves the projections x · w_q in the q
  array and kᵀv per batch in the [4, 1024, 1024] array (both real again, being finite sums of products of reals), and
  region 1, entered with those two arrays, leaves their scaled product in the result array: the specification's `Y`.
-/
import proofs.«169094_j25701084299319_2_alg».proof.Proof.KernelRun
import proofs.«169094_j25701084299319_2_alg».proof.Proof.Region0
import proofs.«169094_j25701084299319_2_alg».proof.Proof.Region1
import Idealize.ShloMosaic.Lib.StableHlo.Run

set_option maxRecDepth 16384

noncomputable section

namespace Cert.KernelIdeal.KernelValue

open Cert.KernelIdeal Cert.KernelIdeal.Gen Idealize.ShloMosaic Idealize.ShloMosaic.TcCoe Idealize.SL.Sem
open Idealize.ShloMosaic.ValueIdx Cert.Lib.AllReal Cert.Lib Cert.Spec
open Idealize.ShloMosaic.Pipeline (Dat)

variable (m : (ℓ : Loc nD τ sig) → Buf (Elt Ideal) ℓ) (ρ : Dev nD → PrngReg)

/-! ## Region 0's entry: the arguments, the weights unchanged by the narrowing -/

theorem entry_x (c : Dev nD) : V1 m ρ c main_arg0 = m ((c.tc : Thread nD τ).loc main_arg0) := by
  show StableHlo.after hostOps0 (W0 m ρ c) (Proc.devRef .tc main_arg0) = _
  after_results

theorem entry_wq (c : Dev nD) : (V1 m ρ c main_v0 : S1024x1024.Idx → EReal) = m ((c.tc : Thread nD τ).loc main_arg1) := by
  show StableHlo.after hostOps0 (W0 m ρ c) (Proc.devRef .tc main_v0) = _
  after_results
  rfl

theorem entry_wk (c : Dev nD) : (V1 m ρ c main_v1 : S1024x1024.Idx → EReal) = m ((c.tc : Thread nD τ).loc main_arg2) := by
  show StableHlo.after hostOps0 (W0 m ρ c) (Proc.devRef .tc main_v1) = _
  after_results
  rfl

theorem entry_wv (c : Dev nD) : (V1 m ρ c main_v2 : S1024x1024.Idx → EReal) = m ((c.tc : Thread nD τ).loc main_arg3) := by
  show StableHlo.after hostOps0 (W0 m ρ c) (Proc.devRef .tc main_v2) = _
  after_results
  rfl

/-! ## The arrays between the regions, and the result -/

section Real
variable (c : Dev nD)
  (hx : AllReal ((m ((c.tc : Thread nD τ).loc main_arg0)) : A3)) (hq : AllReal ((m ((c.tc : Thread nD τ).loc main_arg1)) : A2))
  (hk : AllReal ((m ((c.tc : Thread nD τ).loc main_arg2)) : A2)) (hv : AllReal ((m ((c.tc : Thread nD τ).loc main_arg3)) : A2))
include hx hq hk hv

/-- The q array as region 1 finds it: the projections x · w_q. -/
theorem q_array : (V2 m ρ c main_v3_0 : A3) = projArr (m ((c.tc : Thread nD τ).loc main_arg0)) (m ((c.tc : Thread nD τ).loc main_arg1)) := by
  refine ((W2_arr m ρ c 4).trans (Region0.final4 (V1 m ρ) c)).trans ?_
  rw [entry_x, entry_wq]

/-- The kᵀv array as region 1 finds it. -/
theorem kv_array : (V2 m ρ c main_v3_1 : K3) = kvArr (m ((c.tc : Thread nD τ).loc main_arg0)) (m ((c.tc : Thread nD τ).loc main_arg2)) (m ((c.tc : Thread nD τ).loc main_arg3)) := by
  refine ((W2_arr m ρ c 5).trans (Region0.final5 (V1 m ρ) c (by rw [entry_x]; exact hx) (by rw [entry_wk]; exact hk)
    (by rw [entry_wv]; exact hv))).trans ?_
  rw [entry_x, entry_wk, entry_wv]

/-- THE RESULT ARRAY after region 1 is the specification's `Y` of the arguments. -/
theorem result_eq : (dat1 (V2 m ρ) c).arrAt 2 cfg1.N
    = Y (m ((c.tc : Thread nD τ).loc main_arg0)) (m ((c.tc : Thread nD τ).loc main_arg1)) (m ((c.tc : Thread nD τ).loc main_arg2)) (m ((c.tc : Thread nD τ).loc main_arg3)) := by
  have eq := q_array m ρ c hx hq hk hv
  have ea := kv_array m ρ c hx hq hk hv
  have hq' : AllReal (V2 m ρ c main_v3_0 : A3) := by rw [eq]; exact allReal_projArr hx hq
  have ha' : AllReal (V2 m ρ c main_v3_1 : K3) := by rw [ea]; exact allReal_kvArr hx hk hv
  refine (Region1.final2 (V2 m ρ) c hq' ha').trans ?_
  rw [eq, ea]
  exact Region1.outArr_spec _ _ _ _

end Real

/-- THE RUN, READ: for real arguments every weakly fair execution of the idealized kernel terminates, nothing faulting,
    with the result array at `Y` of the arguments and the arguments as launched. -/
theorem run (hreal : ∀ c : Dev nD, AllReal ((m ((c.tc : Thread nD τ).loc main_arg0)) : A3) ∧ AllReal ((m ((c.tc : Thread nD τ).loc main_arg1)) : A2)
      ∧ AllReal ((m ((c.tc : Thread nD τ).loc main_arg2)) : A2) ∧ AllReal ((m ((c.tc : Thread nD τ).loc main_arg3)) : A2)) :
    θ_run defs (onTc (τ := τ) (main (F := Ideal))) ⟨m, fun _ => 0, ρ⟩ (fun r => ∀ c : Dev nD,
      r.2.mem ((c.tc : Thread nD τ).loc main_v4) = Y (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
      ⟨(h c).1.trans (result_eq m ρ c (hreal c).1 (hreal c).2.1 (hreal c).2.2.1 (hreal c).2.2.2), (h c).2⟩)
    (Cert.KernelIdeal.RunValue.run m ρ)

end Cert.KernelIdeal.KernelValue

end
-- ==== Proof.lean ====
/-
  Softmax-free attention, computed two ways, is one function over the extended reals.

  Inputs x : [4, 4096, 1024] and weights w_q, w_k, w_v : [1024, 1024], all finite. With q = x · w_q, k = x · w_k, v = x · w_v
  the reference computes ((q · kᵀ) · √1024) · v per batch, materializing the [4096, 4096] scores. The kernel uses
  associativity instead: a first pipelined region computes q and accumulates kᵀ · v (a [1024, 1024] block per batch)
  over eight tiles of 512 rows, a second computes (q · (kᵀ · v)) · 32. Its last two products are spelt in three passes,
  a·b + a·(b − b) + (a − a)·b, a precision device that is the single product on real numbers.

  At the ideal instance the two programs agree because every input entry is a real number (the precondition): then so is
  every intermediate, a − a = 0, the tiles add up to the whole sum over the 4096 rows, multiplication distributes over
  the finite sums, the two sums exchange, and √1024 = 32 (module Spec). The kernel's result array is read off its run
  region by region (KernelRun, Pieces0, Body0, Region0, Body1, Region1, KernelValue); the reference's is its generated run
  read at an index (RefValue). The three frames are the generated ones; the ledger's four entries record that a
  narrowing followed by a widening was printed as the identity.
-/
import proofs.«169094_j25701084299319_2_alg».proof.Defs
import proofs.«169094_j25701084299319_2_alg».proof.Proof.Gen.Kernel
import proofs.«169094_j25701084299319_2_alg».proof.Proof.Gen.Kernel.Skeleton
import proofs.«169094_j25701084299319_2_alg».proof.Proof.Gen.Kernel.Launch
import proofs.«169094_j25701084299319_2_alg».proof.Proof.Gen.Kernel.Points
import proofs.«169094_j25701084299319_2_alg».proof.Proof.Gen.Kernel.Frame
import proofs.«169094_j25701084299319_2_alg».proof.Proof.Gen.KernelIdeal
import proofs.«169094_j25701084299319_2_alg».proof.Proof.Gen.KernelIdeal.Skeleton
import proofs.«169094_j25701084299319_2_alg».proof.Proof.Gen.KernelIdeal.Launch
import proofs.«169094_j25701084299319_2_alg».proof.Proof.Gen.KernelIdeal.Points
import proofs.«169094_j25701084299319_2_alg».proof.Proof.Gen.KernelIdeal.Frame
import proofs.«169094_j25701084299319_2_alg».proof.Proof.Gen.ReferenceIdeal
import proofs.«169094_j25701084299319_2_alg».proof.Proof.Gen.Pre_finite_inputs
import proofs.«169094_j25701084299319_2_alg».proof.Proof.Gen.ReferenceIdeal.Run
import proofs.«169094_j25701084299319_2_alg».proof.Proof.Gen.ReferenceIdeal.Read
import proofs.«169094_j25701084299319_2_alg».proof.Proof.Finite
import proofs.«169094_j25701084299319_2_alg».proof.Proof.RefValue
import proofs.«169094_j25701084299319_2_alg».proof.Proof.KernelValue
import Idealize.ShloMosaic.Adequacy
import Idealize.ShloMosaic.Init

noncomputable section

namespace Cert.Proof

open Idealize.ShloMosaic Idealize.SL.Sem Cert.Lib.AllReal

/-- The word-level kernel runs and leaves its arguments as launched: the generated frame. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference is a straight line of host operations: its generated run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The four places where a narrowing to the 16-bit format followed by a widening was printed as the identity. -/
theorem preserves : Cert.preserves_Kernel_KernelIdeal :=
  ⟨IdealRules.truncf_extf.statement _ .f32 .bf16, IdealRules.truncf_extf.statement _ .f32 .bf16,
    IdealRules.truncf_extf.statement _ .f32 .bf16, IdealRules.truncf_extf.statement _ .f32 .bf16⟩

/-- On finite inputs the idealized kernel and the idealized reference end with the same result array: the kernel's is
    `Spec.Y` of the arguments, the reference's `Spec.R`, and the two agree on real arrays. -/
theorem algebraic : Cert.algebraic_KernelIdeal_ReferenceIdeal := by
  intro m ρ m' ρ' hpre hagree
  have hreal : ∀ c : Dev Cert.KernelIdeal.nD, AllReal ((m ((c.tc : Thread Cert.KernelIdeal.nD Cert.KernelIdeal.τ).loc Cert.KernelIdeal.main_arg0)) : Cert.Spec.A3) ∧ AllReal ((m ((c.tc : Thread Cert.KernelIdeal.nD Cert.KernelIdeal.τ).loc Cert.KernelIdeal.main_arg1)) : Cert.Spec.A2)
      ∧ AllReal ((m ((c.tc : Thread Cert.KernelIdeal.nD Cert.KernelIdeal.τ).loc Cert.KernelIdeal.main_arg2)) : Cert.Spec.A2) ∧ AllReal ((m ((c.tc : Thread Cert.KernelIdeal.nD Cert.KernelIdeal.τ).loc Cert.KernelIdeal.main_arg3)) : Cert.Spec.A2) :=
    fun c => Cert.Finite.allReal_of_pre _ _ _ _ (hpre c)
  refine ⟨fun c => Cert.Spec.Y (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    Cert.KernelIdeal.KernelValue.run m ρ hreal, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.ReferenceIdeal.RefValue.ref_eq, (hagree c).1, (hagree c).2.1,
    (hagree c).2.2.1, (hagree c).2.2.2]
  exact (Cert.Spec.Y_eq_R (hreal c).1 (hreal c).2.1 (hreal c).2.2.1 (hreal c).2.2.2).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
